-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x2048 : Shape := ⟨2, ![256, 2048]⟩
abbrev S2048x128x32 : Shape := ⟨3, ![2048, 128, 32]⟩
abbrev S_ : Shape := ⟨0, ![]⟩

class Facts : Prop where
  bcast_S_S256x2048 : S_.BroadcastsInDim S256x2048 (![] : Fin 0 → Fin S256x2048.rank)
  reducesTo_S256x2048_S_d0_1 : S256x2048.ReducesTo [0, 1] S_
  h_S_ : 0 < S_.numel
  bcast_S_S2048x128x32 : S_.BroadcastsInDim S2048x128x32 (![] : Fin 0 → Fin S2048x128x32.rank)
  reducesTo_S2048x128x32_S_d0_1_2 : S2048x128x32.ReducesTo [0, 1, 2] S_

variable [Facts]

def fn {F : FTy → Type} [FloatOps F] (main_arg0 : FVec F S256x2048 .f32) (main_arg1 : FVec F S2048x128x32 .f32) : IVec S_ 1 :=
  let main_v0 : FVec F S256x2048 .f32 := Host.absf main_arg0
  let main_cst : FVec F S_ .f32 := constant S_ .f32 0x7F800000#32
  let main_v1 : FVec F S256x2048 .f32 := broadcastInDim S256x2048 ![] bcast_S_S256x2048 main_cst
  let main_v2 : IVec S256x2048 1 := cmpf .olt main_v0 main_v1
  let main_c : IVec S_ 1 := constantI S_ 1 1#1
  let main_v3 : IVec S_ 1 := (fun x v => Host.reduce IntOp.andi x v reducesTo_S256x2048_S_d0_1 h_S_) main_v2 main_c
  let main_v4 : FVec F S2048x128x32 .f32 := Host.absf main_arg1
  let main_cst_0 : FVec F S_ .f32 := constant S_ .f32 0x7F800000#32
  let main_v5 : FVec F S2048x128x32 .f32 := broadcastInDim S2048x128x32 ![] bcast_S_S2048x128x32 main_cst_0
  let main_v6 : IVec S2048x128x32 1 := cmpf .olt main_v4 main_v5
  let main_c_1 : IVec S_ 1 := constantI S_ 1 1#1
  let main_v7 : IVec S_ 1 := (fun x v => Host.reduce IntOp.andi x v reducesTo_S2048x128x32_S_d0_1_2 h_S_) main_v6 main_c_1
  let main_v8 : IVec S_ 1 := andi main_v3 main_v7
  main_v8
-- ==== Kernel.lean ====
abbrev S256x2048 : Shape := ⟨2, ![256, 2048]⟩
abbrev S2048x128x32 : Shape := ⟨3, ![2048, 128, 32]⟩
abbrev S2048x4096 : Shape := ⟨2, ![2048, 4096]⟩
abbrev S256x4096 : Shape := ⟨2, ![256, 4096]⟩
abbrev S2048x1024 : Shape := ⟨2, ![2048, 1024]⟩
abbrev S256x1024 : Shape := ⟨2, ![256, 1024]⟩
abbrev S256x128x32 : Shape := ⟨3, ![256, 128, 32]⟩
abbrev S32x256x128 : Shape := ⟨3, ![32, 256, 128]⟩
abbrev S256x128 : Shape := ⟨2, ![256, 128]⟩
abbrev S32x64x128 : Shape := ⟨3, ![32, 64, 128]⟩
abbrev S64x128 : Shape := ⟨2, ![64, 128]⟩
abbrev S256x64x128 : Shape := ⟨3, ![256, 64, 128]⟩
abbrev S1x256x128 : Shape := ⟨3, ![1, 256, 128]⟩
abbrev S1x64x128 : Shape := ⟨3, ![1, 64, 128]⟩
abbrev S256x1x128 : Shape := ⟨3, ![256, 1, 128]⟩
abbrev S256x2176 : Shape := ⟨2, ![256, 2176]⟩

abbrev nBuf : Space → Nat
  | .hbm => 10
  | .vmem => 11
  | .smem => 0
  | _ => 0

abbrev bufTy : (tb : Table) → Fin (tcTables nBuf tb) → BufTy
  | .hbm, ⟨0, _⟩ => ⟨S256x2048, .f32⟩
  | .hbm, ⟨1, _⟩ => ⟨S2048x128x32, .f32⟩
  | .hbm, ⟨2, _⟩ => ⟨S2048x4096, .f32⟩
  | .hbm, ⟨3, _⟩ => ⟨S256x2048, .bf16⟩
  | .hbm, ⟨4, _⟩ => ⟨S2048x4096, .bf16⟩
  | .hbm, ⟨5, _⟩ => ⟨S256x4096, .f32⟩
  | .hbm, ⟨6, _⟩ => ⟨S256x128x32, .f32⟩
  | .hbm, ⟨7, _⟩ => ⟨S32x256x128, .f32⟩
  | .hbm, ⟨8, _⟩ => ⟨S256x128, .f32⟩
  | .hbm, ⟨9, _⟩ => ⟨S256x2176, .f32⟩
  | .local _ .vmem, ⟨0, _⟩ => ⟨S256x2048, .bf16⟩
  | .local _ .vmem, ⟨1, _⟩ => ⟨S2048x1024, .bf16⟩
  | .local _ .vmem, ⟨2, _⟩ => ⟨S2048x1024, .bf16⟩
  | .local _ .vmem, ⟨3, _⟩ => ⟨S256x1024, .f32⟩
  | .local _ .vmem, ⟨4, _⟩ => ⟨S256x1024, .f32⟩
  | .local _ .vmem, ⟨5, _⟩ => ⟨S32x256x128, .f32⟩
  | .local _ .vmem, ⟨6, _⟩ => ⟨S32x64x128, .f32⟩
  | .local _ .vmem, ⟨7, _⟩ => ⟨S32x64x128, .f32⟩
  | .local _ .vmem, ⟨8, _⟩ => ⟨S64x128, .f32⟩
  | .local _ .vmem, ⟨9, _⟩ => ⟨S64x128, .f32⟩
  | .local _ .vmem, ⟨10, _⟩ => ⟨S256x64x128, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S32x256x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S32x64x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S2048x128x32_S2048x4096 : S2048x128x32.ShapeCasts S2048x4096
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S256x1024_S256x1024_0_0 : ∀ a, (![0, 0] : Fin 2 → Nat) a + S256x1024.size a ≤ S256x1024.size a
  h_S256x1024 : 0 < S256x1024.numel
  shapeCasts_S256x4096_S256x128x32 : S256x4096.ShapeCasts S256x128x32
  transposes_S256x128x32_S32x256x128_2_0_1 : S256x128x32.Transposes [2, 0, 1] S32x256x128
  inb_S256x64x128_S256x64x128_0_0_0 : ∀ a, (![0, 0, 0] : Fin 3 → Nat) a + S256x64x128.size a ≤ S256x64x128.size a
  h_S256x64x128 : 0 < S256x64x128.numel
  shapeCasts_S256x64x128_S256x64x128 : S256x64x128.ShapeCasts S256x64x128
  inb_S32x256x128_S1x256x128_0_0_0 : ∀ a, (![0, 0, 0] : Fin 3 → Nat) a + S1x256x128.size a ≤ S32x256x128.size a
  h_S1x256x128 : 0 < S1x256x128.numel
  shapeCasts_S1x256x128_S256x128 : S1x256x128.ShapeCasts S256x128
  inb_S32x64x128_S1x64x128_0_0_0 : ∀ a, (![0, 0, 0] : Fin 3 → Nat) a + S1x64x128.size a ≤ S32x64x128.size a
  h_S1x64x128 : 0 < S1x64x128.numel
  shapeCasts_S1x64x128_S64x128 : S1x64x128.ShapeCasts S64x128
  shapeCasts_S256x128_S256x1x128 : S256x128.ShapeCasts S256x1x128
  shapeCasts_S64x128_S1x64x128 : S64x128.ShapeCasts S1x64x128
  broadcasts_S256x1x128_S256x64x128 : S256x1x128.Broadcasts S256x64x128
  broadcasts_S1x64x128_S256x64x128 : S1x64x128.Broadcasts S256x64x128
  inb_S32x256x128_S1x256x128_1_0_0 : ∀ a, (![1, 0, 0] : Fin 3 → Nat) a + S1x256x128.size a ≤ S32x256x128.size a
  inb_S32x64x128_S1x64x128_1_0_0 : ∀ a, (![1, 0, 0] : Fin 3 → Nat) a + S1x64x128.size a ≤ S32x64x128.size a
  inb_S32x256x128_S1x256x128_2_0_0 : ∀ a, (![2, 0, 0] : Fin 3 → Nat) a + S1x256x128.size a ≤ S32x256x128.size a
  inb_S32x64x128_S1x64x128_2_0_0 : ∀ a, (![2, 0, 0] : Fin 3 → Nat) a + S1x64x128.size a ≤ S32x64x128.size a
  inb_S32x256x128_S1x256x128_3_0_0 : ∀ a, (![3, 0, 0] : Fin 3 → Nat) a + S1x256x128.size a ≤ S32x256x128.size a
  inb_S32x64x128_S1x64x128_3_0_0 : ∀ a, (![3, 0, 0] : Fin 3 → Nat) a + S1x64x128.size a ≤ S32x64x128.size a
  inb_S32x256x128_S1x256x128_4_0_0 : ∀ a, (![4, 0, 0] : Fin 3 → Nat) a + S1x256x128.size a ≤ S32x256x128.size a
  inb_S32x64x128_S1x64x128_4_0_0 : ∀ a, (![4, 0, 0] : Fin 3 → Nat) a + S1x64x128.size a ≤ S32x64x128.size a
  inb_S32x256x128_S1x256x128_5_0_0 : ∀ a, (![5, 0, 0] : Fin 3 → Nat) a + S1x256x128.size a ≤ S32x256x128.size a
  inb_S32x64x128_S1x64x128_5_0_0 : ∀ a, (![5, 0, 0] : Fin 3 → Nat) a + S1x64x128.size a ≤ S32x64x128.size a
  inb_S32x256x128_S1x256x128_6_0_0 : ∀ a, (![6, 0, 0] : Fin 3 → Nat) a + S1x256x128.size a ≤ S32x256x128.size a
  inb_S32x64x128_S1x64x128_6_0_0 : ∀ a, (![6, 0, 0] : Fin 3 → Nat) a + S1x64x128.size a ≤ S32x64x128.size a
  inb_S32x256x128_S1x256x128_7_0_0 : ∀ a, (![7, 0, 0] : Fin 3 → Nat) a + S1x256x128.size a ≤ S32x256x128.size a
  inb_S32x64x128_S1x64x128_7_0_0 : ∀ a, (![7, 0, 0] : Fin 3 → Nat) a + S1x64x128.size a ≤ S32x64x128.size a
  inb_S32x256x128_S1x256x128_8_0_0 : ∀ a, (![8, 0, 0] : Fin 3 → Nat) a + S1x256x128.size a ≤ S32x256x128.size a
  inb_S32x64x128_S1x64x128_8_0_0 : ∀ a, (![8, 0, 0] : Fin 3 → Nat) a + S1x64x128.size a ≤ S32x64x128.size a
  inb_S32x256x128_S1x256x128_9_0_0 : ∀ a, (![9, 0, 0] : Fin 3 → Nat) a + S1x256x128.size a ≤ S32x256x128.size a
  inb_S32x64x128_S1x64x128_9_0_0 : ∀ a, (![9, 0, 0] : Fin 3 → Nat) a + S1x64x128.size a ≤ S32x64x128.size a
  inb_S32x256x128_S1x256x128_10_0_0 : ∀ a, (![10, 0, 0] : Fin 3 → Nat) a + S1x256x128.size a ≤ S32x256x128.size a
  inb_S32x64x128_S1x64x128_10_0_0 : ∀ a, (![10, 0, 0] : Fin 3 → Nat) a + S1x64x128.size a ≤ S32x64x128.size a
  inb_S32x256x128_S1x256x128_11_0_0 : ∀ a, (![11, 0, 0] : Fin 3 → Nat) a + S1x256x128.size a ≤ S32x256x128.size a
  inb_S32x64x128_S1x64x128_11_0_0 : ∀ a, (![11, 0, 0] : Fin 3 → Nat) a + S1x64x128.size a ≤ S32x64x128.size a
  inb_S32x256x128_S1x256x128_12_0_0 : ∀ a, (![12, 0, 0] : Fin 3 → Nat) a + S1x256x128.size a ≤ S32x256x128.size a
  inb_S32x64x128_S1x64x128_12_0_0 : ∀ a, (![12, 0, 0] : Fin 3 → Nat) a + S1x64x128.size a ≤ S32x64x128.size a
  inb_S32x256x128_S1x256x128_13_0_0 : ∀ a, (![13, 0, 0] : Fin 3 → Nat) a + S1x256x128.size a ≤ S32x256x128.size a
  inb_S32x64x128_S1x64x128_13_0_0 : ∀ a, (![13, 0, 0] : Fin 3 → Nat) a + S1x64x128.size a ≤ S32x64x128.size a
  inb_S32x256x128_S1x256x128_14_0_0 : ∀ a, (![14, 0, 0] : Fin 3 → Nat) a + S1x256x128.size a ≤ S32x256x128.size a
  inb_S32x64x128_S1x64x128_14_0_0 : ∀ a, (![14, 0, 0] : Fin 3 → Nat) a + S1x64x128.size a ≤ S32x64x128.size a
  inb_S32x256x128_S1x256x128_15_0_0 : ∀ a, (![15, 0, 0] : Fin 3 → Nat) a + S1x256x128.size a ≤ S32x256x128.size a
  inb_S32x64x128_S1x64x128_15_0_0 : ∀ a, (![15, 0, 0] : Fin 3 → Nat) a + S1x64x128.size a ≤ S32x64x128.size a
  inb_S32x256x128_S1x256x128_16_0_0 : ∀ a, (![16, 0, 0] : Fin 3 → Nat) a + S1x256x128.size a ≤ S32x256x128.size a
  inb_S32x64x128_S1x64x128_16_0_0 : ∀ a, (![16, 0, 0] : Fin 3 → Nat) a + S1x64x128.size a ≤ S32x64x128.size a
  inb_S32x256x128_S1x256x128_17_0_0 : ∀ a, (![17, 0, 0] : Fin 3 → Nat) a + S1x256x128.size a ≤ S32x256x128.size a
  inb_S32x64x128_S1x64x128_17_0_0 : ∀ a, (![17, 0, 0] : Fin 3 → Nat) a + S1x64x128.size a ≤ S32x64x128.size a
  inb_S32x256x128_S1x256x128_18_0_0 : ∀ a, (![18, 0, 0] : Fin 3 → Nat) a + S1x256x128.size a ≤ S32x256x128.size a
  inb_S32x64x128_S1x64x128_18_0_0 : ∀ a, (![18, 0, 0] : Fin 3 → Nat) a + S1x64x128.size a ≤ S32x64x128.size a
  inb_S32x256x128_S1x256x128_19_0_0 : ∀ a, (![19, 0, 0] : Fin 3 → Nat) a + S1x256x128.size a ≤ S32x256x128.size a
  inb_S32x64x128_S1x64x128_19_0_0 : ∀ a, (![19, 0, 0] : Fin 3 → Nat) a + S1x64x128.size a ≤ S32x64x128.size a
  inb_S32x256x128_S1x256x128_20_0_0 : ∀ a, (![20, 0, 0] : Fin 3 → Nat) a + S1x256x128.size a ≤ S32x256x128.size a
  inb_S32x64x128_S1x64x128_20_0_0 : ∀ a, (![20, 0, 0] : Fin 3 → Nat) a + S1x64x128.size a ≤ S32x64x128.size a
  inb_S32x256x128_S1x256x128_21_0_0 : ∀ a, (![21, 0, 0] : Fin 3 → Nat) a + S1x256x128.size a ≤ S32x256x128.size a
  inb_S32x64x128_S1x64x128_21_0_0 : ∀ a, (![21, 0, 0] : Fin 3 → Nat) a + S1x64x128.size a ≤ S32x64x128.size a
  inb_S32x256x128_S1x256x128_22_0_0 : ∀ a, (![22, 0, 0] : Fin 3 → Nat) a + S1x256x128.size a ≤ S32x256x128.size a
  inb_S32x64x128_S1x64x128_22_0_0 : ∀ a, (![22, 0, 0] : Fin 3 → Nat) a + S1x64x128.size a ≤ S32x64x128.size a
  inb_S32x256x128_S1x256x128_23_0_0 : ∀ a, (![23, 0, 0] : Fin 3 → Nat) a + S1x256x128.size a ≤ S32x256x128.size a
  inb_S32x64x128_S1x64x128_23_0_0 : ∀ a, (![23, 0, 0] : Fin 3 → Nat) a + S1x64x128.size a ≤ S32x64x128.size a
  inb_S32x256x128_S1x256x128_24_0_0 : ∀ a, (![24, 0, 0] : Fin 3 → Nat) a + S1x256x128.size a ≤ S32x256x128.size a
  inb_S32x64x128_S1x64x128_24_0_0 : ∀ a, (![24, 0, 0] : Fin 3 → Nat) a + S1x64x128.size a ≤ S32x64x128.size a
  inb_S32x256x128_S1x256x128_25_0_0 : ∀ a, (![25, 0, 0] : Fin 3 → Nat) a + S1x256x128.size a ≤ S32x256x128.size a
  inb_S32x64x128_S1x64x128_25_0_0 : ∀ a, (![25, 0, 0] : Fin 3 → Nat) a + S1x64x128.size a ≤ S32x64x128.size a
  inb_S32x256x128_S1x256x128_26_0_0 : ∀ a, (![26, 0, 0] : Fin 3 → Nat) a + S1x256x128.size a ≤ S32x256x128.size a
  inb_S32x64x128_S1x64x128_26_0_0 : ∀ a, (![26, 0, 0] : Fin 3 → Nat) a + S1x64x128.size a ≤ S32x64x128.size a
  inb_S32x256x128_S1x256x128_27_0_0 : ∀ a, (![27, 0, 0] : Fin 3 → Nat) a + S1x256x128.size a ≤ S32x256x128.size a
  inb_S32x64x128_S1x64x128_27_0_0 : ∀ a, (![27, 0, 0] : Fin 3 → Nat) a + S1x64x128.size a ≤ S32x64x128.size a
  inb_S32x256x128_S1x256x128_28_0_0 : ∀ a, (![28, 0, 0] : Fin 3 → Nat) a + S1x256x128.size a ≤ S32x256x128.size a
  inb_S32x64x128_S1x64x128_28_0_0 : ∀ a, (![28, 0, 0] : Fin 3 → Nat) a + S1x64x128.size a ≤ S32x64x128.size a
  inb_S32x256x128_S1x256x128_29_0_0 : ∀ a, (![29, 0, 0] : Fin 3 → Nat) a + S1x256x128.size a ≤ S32x256x128.size a
  inb_S32x64x128_S1x64x128_29_0_0 : ∀ a, (![29, 0, 0] : Fin 3 → Nat) a + S1x64x128.size a ≤ S32x64x128.size a
  inb_S32x256x128_S1x256x128_30_0_0 : ∀ a, (![30, 0, 0] : Fin 3 → Nat) a + S1x256x128.size a ≤ S32x256x128.size a
  inb_S32x64x128_S1x64x128_30_0_0 : ∀ a, (![30, 0, 0] : Fin 3 → Nat) a + S1x64x128.size a ≤ S32x64x128.size a
  inb_S32x256x128_S1x256x128_31_0_0 : ∀ a, (![31, 0, 0] : Fin 3 → Nat) a + S1x256x128.size a ≤ S32x256x128.size a
  inb_S32x64x128_S1x64x128_31_0_0 : ∀ a, (![31, 0, 0] : Fin 3 → Nat) a + S1x64x128.size a ≤ S32x64x128.size a
  reduces_S256x64x128_S64x128 : S256x64x128.Reduces [0] S64x128
  inb_S64x128_S64x128_0_0 : ∀ a, (![0, 0] : Fin 2 → Nat) a + S64x128.size a ≤ S64x128.size a
  h_S64x128 : 0 < S64x128.numel
  concatenates_S256x2048_S256x128_S256x2176_d1 : Shape.Concatenates [S256x2048, S256x128] S256x2176 1
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S256x2048.size a
  hwx0_0 : ∀ i : grid0.Coords, EltTy.bits .bf16 = 32 ∨ (Rect.block (s := S256x2048) S256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x4096.size a
  hwx0_1 : ∀ i : grid0.Coords, EltTy.bits .bf16 = 32 ∨ (Rect.block (s := S2048x4096) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x4096.size a
  hwx0_2 : ∀ i : grid0.Coords, EltTy.bits .f32 = 32 ∨ (Rect.block (s := S256x4096) S256x1024.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S32x256x128.size a ≤ S32x256x128.size a
  hwx1_0 : ∀ i : grid1.Coords, EltTy.bits .f32 = 32 ∨ (Rect.block (s := S32x256x128) S32x256x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x64x128.size a ≤ S32x256x128.size a
  hwx1_1 : ∀ i : grid1.Coords, EltTy.bits .f32 = 32 ∨ (Rect.block (s := S32x256x128) S32x64x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S256x128.size a
  hwx1_2 : ∀ i : grid1.Coords, EltTy.bits .f32 = 32 ∨ (Rect.block (s := S256x128) S64x128.size (cc1_transform_2 i) (hinb1_2 i)).WholeWords (EltTy.packing .f32)

variable [Facts₀]

def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_v1) S256x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v5) S32x256x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v5) S32x64x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S64x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S256x2048 : Shape := ⟨2, ![256, 2048]⟩
abbrev S2048x128x32 : Shape := ⟨3, ![2048, 128, 32]⟩
abbrev S2048x4096 : Shape := ⟨2, ![2048, 4096]⟩
abbrev S256x4096 : Shape := ⟨2, ![256, 4096]⟩
abbrev S256x128x32 : Shape := ⟨3, ![256, 128, 32]⟩
abbrev S1x256x128x32 : Shape := ⟨4, ![1, 256, 128, 32]⟩
abbrev S256x1x128x32 : Shape := ⟨4, ![256, 1, 128, 32]⟩
abbrev S256x256x128x32 : Shape := ⟨4, ![256, 256, 128, 32]⟩
abbrev S_ : Shape := ⟨0, ![]⟩
abbrev S256x256x128 : Shape := ⟨3, ![256, 256, 128]⟩
abbrev S256x128 : Shape := ⟨2, ![256, 128]⟩
abbrev S256x2176 : Shape := ⟨2, ![256, 2176]⟩

abbrev nBuf : Space → Nat
  | .hbm => 18
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048x128x32, .f32⟩
  | .hbm, ⟨2, _⟩ => ⟨S2048x4096, .f32⟩
  | .hbm, ⟨3, _⟩ => ⟨S256x4096, .f32⟩
  | .hbm, ⟨4, _⟩ => ⟨S256x128x32, .f32⟩
  | .hbm, ⟨5, _⟩ => ⟨S1x256x128x32, .f32⟩
  | .hbm, ⟨6, _⟩ => ⟨S256x1x128x32, .f32⟩
  | .hbm, ⟨7, _⟩ => ⟨S256x256x128x32, .f32⟩
  | .hbm, ⟨8, _⟩ => ⟨S256x256x128x32, .f32⟩
  | .hbm, ⟨9, _⟩ => ⟨S256x256x128x32, .f32⟩
  | .hbm, ⟨10, _⟩ => ⟨S256x256x128x32, .f32⟩
  | .hbm, ⟨11, _⟩ => ⟨S_, .f32⟩
  | .hbm, ⟨12, _⟩ => ⟨S256x256x128, .f32⟩
  | .hbm, ⟨13, _⟩ => ⟨S256x256x128, .f32⟩
  | .hbm, ⟨14, _⟩ => ⟨S256x256x128, .f32⟩
  | .hbm, ⟨15, _⟩ => ⟨S_, .f32⟩
  | .hbm, ⟨16, _⟩ => ⟨S256x128, .f32⟩
  | .hbm, ⟨17, _⟩ => ⟨S256x2176, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]

class Facts₀ : Prop where
  shapeCasts_S2048x128x32_S2048x4096 : S2048x128x32.ShapeCasts S2048x4096
  shapeCasts_S256x4096_S256x128x32 : S256x4096.ShapeCasts S256x128x32
  bcast_S256x128x32_S1x256x128x32_1_2_3 : S256x128x32.BroadcastsInDim S1x256x128x32 (![1, 2, 3] : Fin 3 → Fin S1x256x128x32.rank)
  bcast_S256x128x32_S256x1x128x32_0_2_3 : S256x128x32.BroadcastsInDim S256x1x128x32 (![0, 2, 3] : Fin 3 → Fin S256x1x128x32.rank)
  bcast_S1x256x128x32_S256x256x128x32_0_1_2_3 : S1x256x128x32.BroadcastsInDim S256x256x128x32 (![0, 1, 2, 3] : Fin 4 → Fin S256x256x128x32.rank)
  bcast_S256x1x128x32_S256x256x128x32_0_1_2_3 : S256x1x128x32.BroadcastsInDim S256x256x128x32 (![0, 1, 2, 3] : Fin 4 → Fin S256x256x128x32.rank)
  reducesTo_S256x256x128x32_S256x256x128_d3 : S256x256x128x32.ReducesTo [3] S256x256x128
  h_S_ : 0 < S_.numel
  reducesTo_S256x256x128_S256x128_d0 : S256x256x128.ReducesTo [0] S256x128
  concatenates_S256x2048_S256x128_S256x2176_d1 : Shape.Concatenates [S256x2048, S256x128] S256x2176 1
  dot_S256x2048_S2048x4096_S256x4096_1_0_0_1_n_n_wf : DotDims.WF S256x2048 S2048x4096 S256x4096 [1] [0] [0] [1] [] []

variable [Facts₀]

def dot_S256x2048_S2048x4096_S256x4096_1_0_0_1_n_n : DotDims S256x2048 S2048x4096 S256x4096 where
  lhsContracting := [1]
  rhsContracting := [0]
  lhsNonContracting := [0]
  rhsNonContracting := [1]
  lhsBatch := []
  rhsBatch := []
  wf := dot_S256x2048_S2048x4096_S256x4096_1_0_0_1_n_n_wf

class Facts : Prop extends Facts₀ where

variable [Facts]
-- ==== Proof.Spec.lean ====
import Idealize.ShloMosaic.PureOps.Ideal
import Idealize.ShloMosaic.PureOps.Ideal.Laws

/-!
# The function both programs compute, on the extended reals

For a batch `x` of 256 rows of 2048 features and a tensor `T` of shape 2048 × 128 × 32:

* `mm x T i f k = ∑ d, x i d * T d f k` — row `i` projected onto the 32 "kernel dimensions" of output feature `f`;
* `dist M a b f = ∑ k, |M a f k - M b f k|` — the L1 distance between rows `a` and `b` of a projected batch `M`, feature by
  feature (`|y| = max y (-y)`, the absolute value the ideal instance uses);
* `ob M j f = ∑ i, exp (-(dist M j i f))` — the minibatch-discrimination feature of row `j`.

The result array is the batch `x` with the 128 columns `ob (mm x T) j ·` appended.
-/

noncomputable section

namespace Cert.Spec

open Idealize.ShloMosaic

/-- The projected batch: row `i`, output feature `f`, kernel dimension `k`. -/
def mm (x : Fin 256 → Fin 2048 → EReal) (T : Fin 2048 → Fin 128 → Fin 32 → EReal) (i : Fin 256) (f : Fin 128) (k : Fin 32) : EReal :=
  ∑ d : Fin 2048, x i d * T d f k

/-- The L1 distance between rows `a` and `b` of the projected batch at feature `f`. -/
def dist (M : Fin 256 → Fin 128 → Fin 32 → EReal) (a b : Fin 256) (f : Fin 128) : EReal :=
  ∑ k : Fin 32, max (M a f k - M b f k) (-(M a f k - M b f k))

/-- The discrimination feature of row `j` at feature `f`: the sum over every row `i` of `exp (-dist j i)`. -/
def ob (M : Fin 256 → Fin 128 → Fin 32 → EReal) (j : Fin 256) (f : Fin 128) : EReal :=
  ∑ i : Fin 256, Ideal.exp (-(dist M j i f))

/-- The absolute value of a difference does not depend on the order of its terms, at the infinities too. -/
theorem abs_sub_comm (a b : EReal) : max (a - b) (-(a - b)) = max (b - a) (-(b - a)) := by
  induction a using EReal.rec <;> induction b using EReal.rec
  all_goals first
    | (simp; done)
    | (rw [← EReal.coe_sub, ← EReal.coe_sub, ← EReal.coe_neg, ← EReal.coe_neg, neg_sub, neg_sub, max_comm]; done)

/-- The distance is symmetric in the two rows. -/
theorem dist_comm (M : Fin 256 → Fin 128 → Fin 32 → EReal) (a b : Fin 256) (f : Fin 128) : dist M a b f = dist M b a f :=
  Finset.sum_congr rfl fun k _ => abs_sub_comm _ _

end Cert.Spec

end
-- ==== Proof.RefSide.lean ====
import proofs.«124760_j50345606644410_1_alg».proof.Proof.Gen.ReferenceIdeal.Read
import proofs.«124760_j50345606644410_1_alg».proof.Proof.Spec

/-!
# The reference program's result, read at an index

The reference multiplies the batch by the flattened tensor, reshapes the product to rows × features × kernel dimensions
(the flat column `f * 32 + k` is feature `f`, kernel dimension `k`), broadcasts it along two new row axes, and reduces:
its element at row `p`, feature `q` is `0 + ∑ a, exp (-(0 + ∑ k, |M p q k - M a q k|))`, which is the specification's
`ob M p q` with `M = mm x T`. The last operation appends these 128 columns to the batch.
-/

noncomputable section

namespace Cert.ReferenceIdeal.RefValue

open Cert.ReferenceIdeal Cert.ReferenceIdeal.Gen Idealize.ShloMosaic Idealize.ShloMosaic.StableHlo

/-- The reshaped product at row `i`, feature `f`, kernel dimension `k` is the specification's projected batch: the flat
    column `f * 32 + k` of the product is read back as `(f, k)`, and the flattened tensor's column `f * 32 + k` of row `d`
    is the tensor's entry `(d, f, k)`. -/
theorem ref_mm (x0 : (⟨S256x2048, .f32⟩ : BufTy).Contents (Elt Ideal)) (x1 : (⟨S2048x128x32, .f32⟩ : BufTy).Contents (Elt Ideal))
    (i : Fin 256) (f : Fin 128) (k : Fin 32) :
    Read.val_main_v2 (F := Ideal) x0 x1 (ValueIdx.ix3 i f k)
      = Cert.Spec.mm (fun i d => x0 (ValueIdx.ix2 i d)) (fun d f k => x1 (ValueIdx.ix3 d f k)) i f k := by
  rw [Read.val_main_v2_apply, Read.val_main_v1_apply]
  unfold Cert.Spec.mm
  refine Finset.sum_congr rfl fun d _ => ?_
  rw [Read.val_main_v0_apply]
  have hi := i.isLt; have hf := f.isLt; have hk := k.isLt; have hd := d.isLt
  have el : Read.lidx_main_v1 (Read.idx_main_v2 (ValueIdx.ix3 i f k)) d = ValueIdx.ix2 i d := funext fun a => Fin.ext (by
    match a with
    | ⟨0, _⟩ => show ((i.val * 128 + f.val) * 32 + k.val) / 4096 = i.val; omega
    | ⟨1, _⟩ => rfl)
  have er : Read.idx_main_v0 (Read.ridx_main_v1 (Read.idx_main_v2 (ValueIdx.ix3 i f k)) d) = ValueIdx.ix3 d f k := funext fun a => Fin.ext (by
    match a with
    | ⟨0, _⟩ => show (d.val * 4096 + ((i.val * 128 + f.val) * 32 + k.val) % 4096) / 4096 = d.val; omega
    | ⟨1, _⟩ => show (d.val * 4096 + ((i.val * 128 + f.val) * 32 + k.val) % 4096) / 32 % 128 = f.val; omega
    | ⟨2, _⟩ => show (d.val * 4096 + ((i.val * 128 + f.val) * 32 + k.val) % 4096) % 32 = k.val; omega)
  rw [el, er]

/-- The reference's discrimination feature at row `p`, feature `q` is the specification's: the sum over every row `a` of
    `exp (-(∑ k, |M p q k - M a q k|))`, both sums started from the zero word. -/
theorem ref_ob (x0 : (⟨S256x2048, .f32⟩ : BufTy).Contents (Elt Ideal)) (x1 : (⟨S2048x128x32, .f32⟩ : BufTy).Contents (Elt Ideal))
    (p : Fin 256) (q : Fin 128) :
    Read.val_main_v12 (F := Ideal) x0 x1 (ValueIdx.ix2 p q)
      = Cert.Spec.ob (Cert.Spec.mm (fun i d => x0 (ValueIdx.ix2 i d)) (fun d f k => x1 (ValueIdx.ix3 d f k))) p q := by
  rw [Read.val_main_v12_apply, Read.val_main_cst_0_apply]
  unfold Cert.Spec.ob
  rw [Ideal.ofBits_def, Ideal.ofBits_zero_f32, zero_add]
  refine Finset.sum_congr rfl fun a _ => ?_
  rw [Read.val_main_v11_apply, Read.val_main_v10_apply, Read.val_main_v9_apply, Read.val_main_cst_apply]
  simp only [Ideal.hostUnary_exp_def, Ideal.hostNegf_def, Ideal.negf_def, Ideal.ofBits_def, Ideal.ofBits_zero_f32, zero_add]
  unfold Cert.Spec.dist
  refine congrArg Ideal.exp (congrArg Neg.neg (Finset.sum_congr rfl fun k _ => ?_))
  rw [Read.val_main_v8_apply, Read.val_main_v7_apply, Read.val_main_v5_apply, Read.val_main_v6_apply,
    Read.val_main_v3_apply, Read.val_main_v4_apply]
  have e5 : Read.idx_main_v3 (Read.idx_main_v5 (Read.idx_main_v9 (Read.idx_main_v12 (ValueIdx.ix2 p q) a) k)) = ValueIdx.ix3 p q k :=
    funext fun c => Fin.ext (by match c with | ⟨0, _⟩ => rfl | ⟨1, _⟩ => rfl | ⟨2, _⟩ => rfl)
  have e6 : Read.idx_main_v4 (Read.idx_main_v6 (Read.idx_main_v9 (Read.idx_main_v12 (ValueIdx.ix2 p q) a) k)) = ValueIdx.ix3 a q k :=
    funext fun c => Fin.ext (by match c with | ⟨0, _⟩ => rfl | ⟨1, _⟩ => rfl | ⟨2, _⟩ => rfl)
  rw [e5, e6, ref_mm, ref_mm]
  simp only [Ideal.hostAbsf_def, Ideal.absf_def, Ideal.subf_def]

/-- The reference's result is the batch with the 128 discrimination columns appended on the column axis. -/
theorem ref_result (x0 : (⟨S256x2048, .f32⟩ : BufTy).Contents (Elt Ideal)) (x1 : (⟨S2048x128x32, .f32⟩ : BufTy).Contents (Elt Ideal)) :
    Read.val_main_v13 (F := Ideal) x0 x1
      = concatenate S256x2176 1 [⟨S256x2048, x0⟩, ⟨S256x128, Read.val_main_v12 (F := Ideal) x0 x1⟩]
          concatenates_S256x2048_S256x128_S256x2176_d1 := rfl

end Cert.ReferenceIdeal.RefValue

end
-- ==== Proof.BR0.lean ====
import proofs.«124760_j50345606644410_1_alg».proof.Proof.Gen.Kernel.Launch
import proofs.«124760_j50345606644410_1_alg».proof.Proof.Gen.Kernel.Skeleton
import proofs.«124760_j50345606644410_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-!
# The first launch: the projection `x · T`, one block of 1024 output columns per grid point

The launch has three windows: the whole left matrix (256 × 2048, fetched once), a block of 1024 columns of the right
matrix (2048 × 1024 at point `t`: columns `1024 t … 1024 t + 1023`) and the matching block of 1024 columns of the
product. At every point the body reads the two input blocks whole and stores their product over the output block.
Everything here is stated at a parameter `V`: the contents of the core's buffers when the launch begins.
-/

variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left matrix's staging buffer holds the whole matrix at every point, fetched there or not: the block index
    never moves, and the body leaves the buffer as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right matrix's staging buffer holds the point's block of columns. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the body reads and writes -/

abbrev r0_0 : Rect S256x2048 := Rect.unit (s := S256x2048) ![0, 0] S256x2048.size inb_S256x2048_S256x2048_0_0
abbrev r0_1 : Rect S2048x1024 := Rect.unit (s := S2048x1024) ![0, 0] S2048x1024.size inb_S2048x1024_S2048x1024_0_0
abbrev r0_2 : Rect S256x1024 := Rect.unit (s := S256x1024) ![0, 0] S256x1024.size inb_S256x1024_S256x1024_0_0

/-- The output block after the body: the product of the two input blocks, stored whole. -/
def out0_2 (x0 : Vec F S256x2048 .bf16) (x1 : Vec F S2048x1024 .bf16) : Vec F S256x1024 .f32 :=
  View.canon [⟨r0_2, k0_pay1 (View.ld x0 r0_0) (View.ld x1 r0_1)⟩]

/-- The one store covers the output block. -/
theorem cover0_2 (p0 : Vec F S256x1024 .f32) (y : S256x1024.Idx) :
    ∃ pc ∈ ([⟨r0_2, p0⟩] : List (View.Piece (Elt F) S256x1024 .f32)), y ∈ pc.1.set :=
  View.cover_of_tiled [⟨r0_2, p0⟩] S256x1024.size (by rfl) y

set_option maxHeartbeats 1000000 in
/-- The body on whole staging buffers: the inputs come back as they were, the output holds the product. -/
theorem sound_kernel0 (c : Dev nD) (E : Set ℕ) (i : grid0.Coords)
    (arg1 : Memref sig .tc .vmem S256x2048 .bf16) (harg1 : arg1.IsWhole) (arg2 : Memref sig .tc .vmem S2048x1024 .bf16) (harg2 : arg2.IsWhole)
    (arg3 : Memref sig .tc .vmem S256x1024 .f32) (harg3 : arg3.IsWhole)
    (x0 : Vec F S256x2048 .bf16) (x1 : Vec F S2048x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The launch's proof data -/

/-- The arrays as the launch finds them; after the body each input's buffer at its block and the output's at the
    product of the input blocks; the scoped buffers and the generator register ride along untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BR1.lean ====
import proofs.«124760_j50345606644410_1_alg».proof.Proof.Gen.Kernel.Launch
import proofs.«124760_j50345606644410_1_alg».proof.Proof.Gen.Kernel.Skeleton
import proofs.«124760_j50345606644410_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-!
# The second launch: pairwise L1 distances, their negated exponentials, and the sum over rows

Three windows: the whole transposed projection `P` (32 × 256 × 128: kernel dimension, row, feature; fetched once), a block
of 64 of its rows (32 × 64 × 128 at point `t`: rows `64 t … 64 t + 63`) — both windows stage the SAME array — and a block of
64 rows of the 256 × 128 output. The body also has a scratch buffer (256 × 64 × 128): it zeroes it, adds for each of the 32
kernel dimensions `|P[k, i, f] - P[k, 64 t + j, f]|` at entry `(i, j, f)`, and stores the sum over `i` of `exp (0 - scratch)`
over the output block. The scratch is rewritten whole before it is read, so its contents between points do not matter.
-/

set_option maxHeartbeats 4000000 in
/-- The body on whole buffers: the inputs come back as they were, the scratch at some contents, and the output buffer
    holds the pieces the body's stores leave. -/
noncomputable def kernelRun1 (c : Dev nD) (i : grid1.Coords)
    (arg1 : Memref sig .tc .vmem S32x256x128 .f32) (harg1 : arg1.IsWhole) (arg2 : Memref sig .tc .vmem S32x64x128 .f32) (harg2 : arg2.IsWhole)
    (arg3 : Memref sig .tc .vmem S64x128 .f32) (harg3 : arg3.IsWhole) (arg4 : Memref sig .tc .vmem S256x64x128 .f32) (harg4 : arg4.IsWhole)
    (x0 : Vec F S32x256x128 .f32) (x1 : Vec F S32x64x128 .f32) :
    { L2 : List (View.Piece (Elt F) S64x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ d, owns (c : Thread nD τ) arg4 fullShare d)) -∗ K ⟨⟩))
          ⊢ wp frame (wpE (defs₀ (F := F)) Variants.none c none) E (cc1__pairwise_kernel i arg1 harg1 arg2 harg2 arg3 harg3 arg4 harg4) K } := by
  refine ⟨?_, fun E K => ?run⟩
  case run =>
    simp only [cc1__pairwise_kernel_eq_skeleton]; unfold cc1__pairwise_kernel_skel
    unfold owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _; iexists _; isplitr
    swap; · iexact H3
    ipureintro; rfl

variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The staging buffers at a point, and the scratch -/

abbrev ms1_0 (t : Fin cfg1.N) : Memref sig .tc .vmem S32x256x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S32x64x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x128 .f32 := win1_2.stage (cfg1.slots t 2)
abbrev hs1_2 (t : Fin cfg1.N) : (ms1_2 t).IsWhole := hstage1_2 ((cfg1.slots t 2).cast nbuf1_2)
abbrev scM1 : Memref sig .tc .vmem S256x64x128 .f32 := Memref.whole cc1_scratch0

abbrev r1_2 : Rect S64x128 := Rect.unit (s := S64x128) ![0, 0] S64x128.size inb_S64x128_S64x128_0_0

/-- The pieces the body leaves in the output buffer at point `t`, from the two input blocks. -/
def pieces1 (c : Dev nD) (t : Fin cfg1.N) (x0 : Vec F S32x256x128 .f32) (x1 : Vec F S32x64x128 .f32) : List (View.Piece (Elt F) S64x128 .f32) :=
  (kernelRun1 c (grid1.coords t) (ms1_0 t) (hs1_0 t) (ms1_1 t) (hs1_1 t) (ms1_2 t) (hs1_2 t) scM1 (Memref.isWhole_whole _) x0 x1).1

/-- They are one store over the whole block. -/
theorem pieces1_shape (c : Dev nD) (t : Fin cfg1.N) (x0 : Vec F S32x256x128 .f32) (x1 : Vec F S32x64x128 .f32) :
    ∃ p, pieces1 c t x0 x1 = [⟨r1_2, p⟩] := ⟨_, rfl⟩

theorem cover1_2 (c : Dev nD) (t : Fin cfg1.N) (x0 : Vec F S32x256x128 .f32) (x1 : Vec F S32x64x128 .f32) (y : S64x128.Idx) :
    ∃ pc ∈ pieces1 c t x0 x1, y ∈ pc.1.set := by
  obtain ⟨p, hp⟩ := pieces1_shape c t x0 x1
  rw [hp]
  exact View.cover_of_tiled [⟨r1_2, p⟩] S64x128.size (by rfl) y

/-- The output block after the body at point `t`. -/
def out1_2 (c : Dev nD) (t : Fin cfg1.N) (x0 : Vec F S32x256x128 .f32) (x1 : Vec F S32x64x128 .f32) : Vec F S64x128 .f32 :=
  View.canon (pieces1 c t x0 x1)

/-! ## The launch's proof data -/

/-- The arrays as the launch finds them; the shared input array is held half by each of its two windows. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 c t (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 c t (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 1000000 in
theorem sound_body1 (c : Dev nD) (t : Fin cfg1.N) :
    bodyPre1 V c t ⊢ wp frame (wpE (defs₀ (F := F)) Variants.none c none) Set.univ (bodyAt1 t) (fun _ => bodyPost1 V c t) := by
  have hrun := fun K => (kernelRun1 c (grid1.coords t) (ms1_0 t) (hs1_0 t) (ms1_1 t) (hs1_1 t) (ms1_2 t) (hs1_2 t) scM1 (Memref.isWhole_whole _) (iblk1 V c 0 t) (iblk1 V c 1 t)).2 Set.univ K
  simp only [owns_whole] at hrun
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  rw [show (dat1 V c).Φ t.castSucc = Pipeline.ΦA spec1 c from rfl]
  unfold Pipeline.ΦA
  rw [scopedRest1_eq]
  iintro ⟨⟨⟨Ha, Hb, Hc, Hd, He, ⟨%fs, Hs⟩⟩, Hp⟩, Ho, ⟨%d0, H0⟩, ⟨%d1, H1⟩, ⟨%d2, H2⟩⟩
  iapply (hrun _)
  isplitl [H0]; · iexact H0
  isplitl [H1]; · iexact H1
  isplitl [H2]; · iexists _; iexact H2
  isplitl [Hs]
  · iexists fs; iexact Hs
  iintro ⟨H0, H1, ⟨%f2, H2⟩, ⟨%ds, Hs⟩⟩
  isplitl [Ha Hb Hc Hd He Hs Hp]
  · isplitr [Hp]
    · isplitl [Ha]; · iexact Ha
      isplitl [Hb]; · iexact Hb
      isplitl [Hc]; · iexact Hc
      isplitl [Hd]; · iexact Hd
      isplitl [He]; · iexact He
      iexists _; iexact Hs
    iexact Hp
  isplitl [Ho]; · iexact Ho
  isplitl [H0]; · iexact H0
  isplitl [H1]; · iexact H1
  unfold owns
  iexists _; isplitr
  swap; · iexact H2
  ipureintro
  exact View.read_writes_eq_canon _ _ _ (cover1_2 c t _ _)

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BRun.lean ====
import proofs.«124760_j50345606644410_1_alg».proof.Proof.Gen.Kernel.Launch
import proofs.«124760_j50345606644410_1_alg».proof.Proof.Gen.Kernel.Skeleton
import proofs.«124760_j50345606644410_1_alg».proof.Proof.Gen.Kernel.Points
import proofs.«124760_j50345606644410_1_alg».proof.Proof.BR0
import proofs.«124760_j50345606644410_1_alg».proof.Proof.BR1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-!
# The run: host operations, the projection launch, host operations, the pairwise launch, the concatenation

The buffer contents at each boundary are a fold from the launch memory: a stretch of host operations applies them; a
launch leaves its output array at what its write-backs leave and every other buffer as entered. The run ends with every
unscoped buffer at the last boundary's contents.
-/

/-! ## The second launch's arrays, buffer by buffer (two of its windows stage one array) -/

section Arrays1

variable (V : (c : Dev nD) → (b : Ref sig .tc) → Buf (Elt F) ((c : Thread nD τ).loc b))

/-- The second launch's arrays: the shared input array held half by each input window, the output array whole. -/
theorem arrays1_eq (c : Dev nD) (Fn : (w : Fin cfg1.W) → Buf (Elt F) ((cfg1.win w).arr.view.loc (c : Thread nD τ))) :
    ((dat1 V c).arrays Fn : sProp 𝕄)
      = iprop((((c : Thread nD τ).loc main_v5) ↦{fullShare.left} Fn 0) ∗ (((c : Thread nD τ).loc main_v5) ↦{fullShare.right} Fn 1)
          ∗ (((c : Thread nD τ).loc main_v6) ↦{fullShare} Fn 2)) := by
  unfold Pipeline.Dat.arrays
  rw [bigSep_W1, (arr_whole1 0).set_eq_univ, (arr_whole1 2).set_eq_univ]
  rfl

/-- The distinct buffers behind them. -/
theorem arrBufs1_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_v5) ↦{fullShare} Vc main_v5) ∗ (((c : Thread nD τ).loc main_v6) ↦{fullShare} Vc main_v6)) := by
  unfold Pipeline.arrBufs
  rw [show Finset.univ.image (Pipeline.arrRef spec1) = {main_v5, main_v6} from by decide,
    bigSep_insert (by decide), bigSep_singleton]
  rfl

end Arrays1

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection launch: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the pairwise launch: its output array at what the pipeline leaves, every other buffer as entered. -/
def W4 (c : Dev nD) : Valuation τ sig (Elt F) :=
  Function.update (W3 m ρ c) (Proc.devRef .tc main_v6) ((dat1 (V3 m ρ) c).arrAt 2 cfg1.N)
theorem W4_v6 (c : Dev nD) : W4 m ρ c (Proc.devRef .tc main_v6) = (dat1 (V3 m ρ) c).arrAt 2 cfg1.N := by
  unfold W4; exact Function.update_self _ _ _
theorem W4_of_ne (c : Dev nD) (b : Ref sig .tc) (hb : b ≠ main_v6) :
    W4 m ρ c (Proc.devRef .tc b) = W3 m ρ c (Proc.devRef .tc b) := by
  unfold W4; exact Function.update_of_ne (StableHlo.devRef_ne_of_ne hb) _ _
abbrev V4 : (c : Dev nD) → (b : Ref sig .tc) → Buf (Elt F) ((c : Thread nD τ).loc b) := fun c b => W4 m ρ c b
abbrev W5 : Dev nD → Valuation τ sig (Elt F) := fun c => StableHlo.after hostOps2 (W4 m ρ c)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The launches as segments -/

set_option backward.isDefEq.respectTransparency.types false in
/-- The projection launch: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The unscoped buffers at a valuation are the two distinct array buffers of the pairwise launch and the rest. -/
theorem held_split1 (c : Dev nD) (W : Valuation τ sig (Elt F)) :
    (StableHlo.held (c : Thread nD τ) (Pipeline.ucRefs τ sig) W : sProp 𝕄)
      = iprop(((((c : Thread nD τ).loc main_v5) ↦{fullShare} (W (Proc.devRef .tc main_v5) : Buf (Elt F) ((c : Thread nD τ).loc main_v5)))
            ∗ (((c : Thread nD τ).loc main_v6) ↦{fullShare} (W (Proc.devRef .tc main_v6) : Buf (Elt F) ((c : Thread nD τ).loc main_v6))))
          ∗ Pipeline.unscopedRest (Ix := Unit) (Name := ℕ) (U := UR sig nD τ) (Lvl := ℕ) spec1 c (fun b => W (Proc.devRef .tc b))) := by
  rw [← Pipeline.unscopedBufs_held (Ix := Unit) (Name := ℕ) (U := UR sig nD τ) (Lvl := ℕ) c W,
    Pipeline.unscopedBufs_split₀ cfgs 1 (by decide) c (fun b => W (Proc.devRef .tc b))]
  show iprop((Pipeline.arrBufs (Ix := Unit) (Name := ℕ) (U := UR sig nD τ) (Lvl := ℕ) spec1 c (fun b => W (Proc.devRef .tc b)) : sProp 𝕄) ∗ _) = _
  rw [arrBufs1_eq]
  rfl

/-- No buffer but the output array differs across the pairwise launch. -/
theorem rest_eq1 (c : Dev nD) :
    (Pipeline.unscopedRest (Ix := Unit) (Name := ℕ) (U := UR sig nD τ) (Lvl := ℕ) spec1 c (fun b => W4 m ρ c (Proc.devRef .tc b)) : sProp 𝕄)
      = Pipeline.unscopedRest spec1 c (fun b => W3 m ρ c (Proc.devRef .tc b)) := by
  unfold Pipeline.unscopedRest
  exact bigSep_congr fun b hb => by
    dsimp only
    rw [W4_of_ne m ρ c b (fun e => (Finset.mem_sdiff.mp hb).2 (e ▸ (by decide : main_v6 ∈ Finset.univ.image (Pipeline.arrRef spec1))))]

set_option backward.isDefEq.respectTransparency.types false in
/-- The pairwise launch: entered from every unscoped buffer at `W3`, left at `W4`. The shared input array is split
    between its two windows at entry and joined again at exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none, held_split1]
    rw [show (((pdats m ρ 1 c).arrays fun w => (pdats m ρ 1 c).arrAt w 0) : sProp 𝕄)
        = ((dat1 (V3 m ρ) c).arrays fun w => (dat1 (V3 m ρ) c).arrAt w 0) from rfl, arrays1_eq]
    have hsh : ∀ f : Buf (Elt F) ((c : Thread nD τ).loc main_v5), ((((c : Thread nD τ).loc main_v5) ↦{fullShare} f) : sProp 𝕄)
        ⊢ iprop((((c : Thread nD τ).loc main_v5) ↦{fullShare.left} f) ∗ (((c : Thread nD τ).loc main_v5) ↦{fullShare.right} f)) :=
      fun f => (pointsTo_share (PosShare.mem_left_op_right fullShare)).1
    iintro ⟨⟨⟨⟨H5, H6⟩, Hrest⟩, Hp, HO⟩, -, -⟩
    ihave H5' := (hsh _) $$ H5
    icases H5' with ⟨H5l, H5r⟩
    imodintro
    isplitl [H5l H5r H6]
    · isplitl [H5l]; · iexact H5l
      isplitl [H5r]; · iexact H5r
      iexact H6
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    rw [held_split1, rest_eq1]
    rw [show (((pdats m ρ 1 c).arrays fun w => (pdats m ρ 1 c).arrAt w (Pipeline.pin (pcfgs (F := F)) adm 1).N) : sProp 𝕄)
        = ((dat1 (V3 m ρ) c).arrays fun w => (dat1 (V3 m ρ) c).arrAt w cfg1.N) from rfl, arrays1_eq]
    dsimp only
    rw [(dat1 (V3 m ρ) c).arrAt_in 0 rfl, (dat1 (V3 m ρ) c).arrAt_in 1 rfl, W4_v6, W4_of_ne m ρ c main_v5 (by decide)]
    iintro ⟨⟨H5l, H5r, H6⟩, HO, HY, Hrest⟩
    imodintro
    isplitl [H5l H5r H6 Hrest]
    · isplitl [H5l H5r H6]
      · isplitl [H5l H5r]
        · iapply (pointsTo_share (PosShare.mem_left_op_right fullShare)).2
          isplitl [H5l]; · iexact H5l
          iexact H5r
        iexact H6
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every unscoped buffer ends at the last boundary's contents `W5`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => (show iprop(StableHlo.held (c : Thread nD τ) (Pipeline.ucRefs τ sig) (W5 m ρ c) ∗ R c)
          ⊢ iprop(Tₙ m ρ c ∗ ∃ W, owes (c : Thread nD τ) (0 : CellTallies nD τ sig Unit) W) from by
      iintro ⟨Hh, Hp, Ho⟩
      isplitl [Hh Hp]
      · isplitl [Hh]; · iexact Hh
        iexact Hp
      iexact Ho)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

end Cert.Kernel.Hand

end
-- ==== Proof.BRunArgs.lean ====
import proofs.«124760_j50345606644410_1_alg».proof.Proof.BRun

set_option maxRecDepth 16384

noncomputable section

namespace Cert.Kernel.Hand

open Idealize.ShloMosaic Idealize.ShloMosaic.TcCoe Idealize.ShloMosaic.Tactic
open Idealize.ShloMosaic.Pipeline (Dat Cfg Window BodyObligation cellOf)
open Cert.Kernel Cert.Kernel.Gen

variable {F : FTy → Type} [FloatOps F]
variable (m : (ℓ : Loc nD τ sig) → Buf (Elt F) ℓ) (ρ : Dev nD → PrngReg)

/-!
# The arguments and the result at the last boundary

The two arguments are written by no host operation and are the array of no launch, so the fold of boundary contents
at an argument's buffer walks back, boundary by boundary, to the launch memory. The result buffer is written once, by
the last host operation: the concatenation, along the second axis, of the first argument (as launched) and of the
pairwise launch's output array.
-/

/-- A buffer that none of a stretch's host operations writes is left as entered: the stretch's written buffers are
    listed one by one and told apart from the given one as references. -/
local macro "not_written" : tactic =>
  `(tactic| (refine List.forall_iff_forall_mem.mp ?_
             simp only [hostOps0, hostOps1, hostOps2, List.Forall, StableHlo.nullary_writes, StableHlo.unary_writes,
               StableHlo.binary_writes, StableHlo.ternary_writes, StableHlo.quaternary_writes, StableHlo.reshape_writes,
               StableHlo.binaryIndexed_writes, Finset.mem_singleton]
             repeat' apply And.intro
             all_goals exact StableHlo.devRef_ne_of_ne (by decide)))

/-- The first argument before the last stretch of host operations: as launched. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) :=
        StableHlo.after_of_forall_not_mem (b := Proc.devRef .tc main_arg0) _ _ (by not_written)
    _ = W1 m ρ c (Proc.devRef .tc main_arg0) := W2_of_ne m ρ c main_arg0 (by decide)
    _ = W0 m ρ c (Proc.devRef .tc main_arg0) :=
        StableHlo.after_of_forall_not_mem (b := Proc.devRef .tc main_arg0) _ _ (by not_written)
    _ = m ((c : Thread nD τ).loc main_arg0) := rfl

/-- The first argument ends as launched. -/
theorem W5_main_arg0 (c : Dev nD) : W5 m ρ c (Proc.devRef .tc main_arg0) = m ((c : Thread nD τ).loc main_arg0) :=
  (StableHlo.after_of_forall_not_mem (b := Proc.devRef .tc main_arg0) _ _ (by not_written)).trans (W4_main_arg0 m ρ c)

/-- The second argument ends as launched. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) :=
        StableHlo.after_of_forall_not_mem (b := Proc.devRef .tc main_arg1) _ _ (by not_written)
    _ = W3 m ρ c (Proc.devRef .tc main_arg1) := W4_of_ne m ρ c main_arg1 (by decide)
    _ = W2 m ρ c (Proc.devRef .tc main_arg1) :=
        StableHlo.after_of_forall_not_mem (b := Proc.devRef .tc main_arg1) _ _ (by not_written)
    _ = W1 m ρ c (Proc.devRef .tc main_arg1) := W2_of_ne m ρ c main_arg1 (by decide)
    _ = W0 m ρ c (Proc.devRef .tc main_arg1) :=
        StableHlo.after_of_forall_not_mem (b := Proc.devRef .tc main_arg1) _ _ (by not_written)
    _ = m ((c : Thread nD τ).loc main_arg1) := rfl

/-- The result buffer ends at the concatenation of the first argument, as launched, and of the pairwise launch's
    output array. -/
theorem W5_main_v7 (c : Dev nD) :
    W5 m ρ c (Proc.devRef .tc main_v7)
      = concatenate S256x2176 1 [⟨S256x2048, m ((c : Thread nD τ).loc main_arg0)⟩,
          ⟨S256x128, (dat1 (V3 m ρ) c).arrAt 2 cfg1.N⟩] concatenates_S256x2048_S256x128_S256x2176_d1 := by
  show StableHlo.after hostOps2 _ (Proc.devRef .tc main_v7) = _
  after_results
  rw [W4_main_arg0, W4_v6]

end Cert.Kernel.Hand

end
-- ==== Proof.R0.lean ====
import proofs.«124760_j50345606644410_1_alg».proof.Proof.Gen.KernelIdeal.Launch
import proofs.«124760_j50345606644410_1_alg».proof.Proof.Gen.KernelIdeal.Skeleton
import proofs.«124760_j50345606644410_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-!
# The first launch: the projection `x · T`, one block of 1024 output columns per grid point

The launch has three windows: the whole left matrix (256 × 2048, fetched once), a block of 1024 columns of the right
matrix (2048 × 1024 at point `t`: columns `1024 t … 1024 t + 1023`) and the matching block of 1024 columns of the
product. At every point the body reads the two input blocks whole and stores their product over the output block.
Everything here is stated at a parameter `V`: the contents of the core's buffers when the launch begins.
-/

variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left matrix's staging buffer holds the whole matrix at every point, fetched there or not: the block index
    never moves, and the body leaves the buffer as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right matrix's staging buffer holds the point's block of columns. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the body reads and writes -/

abbrev r0_0 : Rect S256x2048 := Rect.unit (s := S256x2048) ![0, 0] S256x2048.size inb_S256x2048_S256x2048_0_0
abbrev r0_1 : Rect S2048x1024 := Rect.unit (s := S2048x1024) ![0, 0] S2048x1024.size inb_S2048x1024_S2048x1024_0_0
abbrev r0_2 : Rect S256x1024 := Rect.unit (s := S256x1024) ![0, 0] S256x1024.size inb_S256x1024_S256x1024_0_0

/-- The output block after the body: the product of the two input blocks, stored whole. -/
def out0_2 (x0 : Vec F S256x2048 .bf16) (x1 : Vec F S2048x1024 .bf16) : Vec F S256x1024 .f32 :=
  View.canon [⟨r0_2, k0_pay1 (View.ld x0 r0_0) (View.ld x1 r0_1)⟩]

/-- The one store covers the output block. -/
theorem cover0_2 (p0 : Vec F S256x1024 .f32) (y : S256x1024.Idx) :
    ∃ pc ∈ ([⟨r0_2, p0⟩] : List (View.Piece (Elt F) S256x1024 .f32)), y ∈ pc.1.set :=
  View.cover_of_tiled [⟨r0_2, p0⟩] S256x1024.size (by rfl) y

set_option maxHeartbeats 1000000 in
/-- The body on whole staging buffers: the inputs come back as they were, the output holds the product. -/
theorem sound_kernel0 (c : Dev nD) (E : Set ℕ) (i : grid0.Coords)
    (arg1 : Memref sig .tc .vmem S256x2048 .bf16) (harg1 : arg1.IsWhole) (arg2 : Memref sig .tc .vmem S2048x1024 .bf16) (harg2 : arg2.IsWhole)
    (arg3 : Memref sig .tc .vmem S256x1024 .f32) (harg3 : arg3.IsWhole)
    (x0 : Vec F S256x2048 .bf16) (x1 : Vec F S2048x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The launch's proof data -/

/-- The arrays as the launch finds them; after the body each input's buffer at its block and the output's at the
    product of the input blocks; the scoped buffers and the generator register ride along untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.R1.lean ====
import proofs.«124760_j50345606644410_1_alg».proof.Proof.Gen.KernelIdeal.Launch
import proofs.«124760_j50345606644410_1_alg».proof.Proof.Gen.KernelIdeal.Skeleton
import proofs.«124760_j50345606644410_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-!
# The second launch: pairwise L1 distances, their negated exponentials, and the sum over rows

Three windows: the whole transposed projection `P` (32 × 256 × 128: kernel dimension, row, feature; fetched once), a block
of 64 of its rows (32 × 64 × 128 at point `t`: rows `64 t … 64 t + 63`) — both windows stage the SAME array — and a block of
64 rows of the 256 × 128 output. The body also has a scratch buffer (256 × 64 × 128): it zeroes it, adds for each of the 32
kernel dimensions `|P[k, i, f] - P[k, 64 t + j, f]|` at entry `(i, j, f)`, and stores the sum over `i` of `exp (0 - scratch)`
over the output block. The scratch is rewritten whole before it is read, so its contents between points do not matter.
-/

set_option maxHeartbeats 4000000 in
/-- The body on whole buffers: the inputs come back as they were, the scratch at some contents, and the output buffer
    holds the pieces the body's stores leave. -/
noncomputable def kernelRun1 (c : Dev nD) (i : grid1.Coords)
    (arg1 : Memref sig .tc .vmem S32x256x128 .f32) (harg1 : arg1.IsWhole) (arg2 : Memref sig .tc .vmem S32x64x128 .f32) (harg2 : arg2.IsWhole)
    (arg3 : Memref sig .tc .vmem S64x128 .f32) (harg3 : arg3.IsWhole) (arg4 : Memref sig .tc .vmem S256x64x128 .f32) (harg4 : arg4.IsWhole)
    (x0 : Vec F S32x256x128 .f32) (x1 : Vec F S32x64x128 .f32) :
    { L2 : List (View.Piece (Elt F) S64x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ d, owns (c : Thread nD τ) arg4 fullShare d)) -∗ K ⟨⟩))
          ⊢ wp frame (wpE (defs₀ (F := F)) Variants.none c none) E (cc1__pairwise_kernel i arg1 harg1 arg2 harg2 arg3 harg3 arg4 harg4) K } := by
  refine ⟨?_, fun E K => ?run⟩
  case run =>
    simp only [cc1__pairwise_kernel_eq_skeleton]; unfold cc1__pairwise_kernel_skel
    unfold owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _; iexists _; isplitr
    swap; · iexact H3
    ipureintro; rfl

variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The staging buffers at a point, and the scratch -/

abbrev ms1_0 (t : Fin cfg1.N) : Memref sig .tc .vmem S32x256x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S32x64x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x128 .f32 := win1_2.stage (cfg1.slots t 2)
abbrev hs1_2 (t : Fin cfg1.N) : (ms1_2 t).IsWhole := hstage1_2 ((cfg1.slots t 2).cast nbuf1_2)
abbrev scM1 : Memref sig .tc .vmem S256x64x128 .f32 := Memref.whole cc1_scratch0

abbrev r1_2 : Rect S64x128 := Rect.unit (s := S64x128) ![0, 0] S64x128.size inb_S64x128_S64x128_0_0

/-- The pieces the body leaves in the output buffer at point `t`, from the two input blocks. -/
def pieces1 (c : Dev nD) (t : Fin cfg1.N) (x0 : Vec F S32x256x128 .f32) (x1 : Vec F S32x64x128 .f32) : List (View.Piece (Elt F) S64x128 .f32) :=
  (kernelRun1 c (grid1.coords t) (ms1_0 t) (hs1_0 t) (ms1_1 t) (hs1_1 t) (ms1_2 t) (hs1_2 t) scM1 (Memref.isWhole_whole _) x0 x1).1

/-- They are one store over the whole block. -/
theorem pieces1_shape (c : Dev nD) (t : Fin cfg1.N) (x0 : Vec F S32x256x128 .f32) (x1 : Vec F S32x64x128 .f32) :
    ∃ p, pieces1 c t x0 x1 = [⟨r1_2, p⟩] := ⟨_, rfl⟩

theorem cover1_2 (c : Dev nD) (t : Fin cfg1.N) (x0 : Vec F S32x256x128 .f32) (x1 : Vec F S32x64x128 .f32) (y : S64x128.Idx) :
    ∃ pc ∈ pieces1 c t x0 x1, y ∈ pc.1.set := by
  obtain ⟨p, hp⟩ := pieces1_shape c t x0 x1
  rw [hp]
  exact View.cover_of_tiled [⟨r1_2, p⟩] S64x128.size (by rfl) y

/-- The output block after the body at point `t`. -/
def out1_2 (c : Dev nD) (t : Fin cfg1.N) (x0 : Vec F S32x256x128 .f32) (x1 : Vec F S32x64x128 .f32) : Vec F S64x128 .f32 :=
  View.canon (pieces1 c t x0 x1)

/-! ## The launch's proof data -/

/-- The arrays as the launch finds them; the shared input array is held half by each of its two windows. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 c t (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 c t (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 1000000 in
theorem sound_body1 (c : Dev nD) (t : Fin cfg1.N) :
    bodyPre1 V c t ⊢ wp frame (wpE (defs₀ (F := F)) Variants.none c none) Set.univ (bodyAt1 t) (fun _ => bodyPost1 V c t) := by
  have hrun := fun K => (kernelRun1 c (grid1.coords t) (ms1_0 t) (hs1_0 t) (ms1_1 t) (hs1_1 t) (ms1_2 t) (hs1_2 t) scM1 (Memref.isWhole_whole _) (iblk1 V c 0 t) (iblk1 V c 1 t)).2 Set.univ K
  simp only [owns_whole] at hrun
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  rw [show (dat1 V c).Φ t.castSucc = Pipeline.ΦA spec1 c from rfl]
  unfold Pipeline.ΦA
  rw [scopedRest1_eq]
  iintro ⟨⟨⟨Ha, Hb, Hc, Hd, He, ⟨%fs, Hs⟩⟩, Hp⟩, Ho, ⟨%d0, H0⟩, ⟨%d1, H1⟩, ⟨%d2, H2⟩⟩
  iapply (hrun _)
  isplitl [H0]; · iexact H0
  isplitl [H1]; · iexact H1
  isplitl [H2]; · iexists _; iexact H2
  isplitl [Hs]
  · iexists fs; iexact Hs
  iintro ⟨H0, H1, ⟨%f2, H2⟩, ⟨%ds, Hs⟩⟩
  isplitl [Ha Hb Hc Hd He Hs Hp]
  · isplitr [Hp]
    · isplitl [Ha]; · iexact Ha
      isplitl [Hb]; · iexact Hb
      isplitl [Hc]; · iexact Hc
      isplitl [Hd]; · iexact Hd
      isplitl [He]; · iexact He
      iexists _; iexact Hs
    iexact Hp
  isplitl [Ho]; · iexact Ho
  isplitl [H0]; · iexact H0
  isplitl [H1]; · iexact H1
  unfold owns
  iexists _; isplitr
  swap; · iexact H2
  ipureintro
  exact View.read_writes_eq_canon _ _ _ (cover1_2 c t _ _)

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Run.lean ====
import proofs.«124760_j50345606644410_1_alg».proof.Proof.Gen.KernelIdeal.Launch
import proofs.«124760_j50345606644410_1_alg».proof.Proof.Gen.KernelIdeal.Skeleton
import proofs.«124760_j50345606644410_1_alg».proof.Proof.Gen.KernelIdeal.Points
import proofs.«124760_j50345606644410_1_alg».proof.Proof.R0
import proofs.«124760_j50345606644410_1_alg».proof.Proof.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-!
# The run: host operations, the projection launch, host operations, the pairwise launch, the concatenation

The buffer contents at each boundary are a fold from the launch memory: a stretch of host operations applies them; a
launch leaves its output array at what its write-backs leave and every other buffer as entered. The run ends with every
unscoped buffer at the last boundary's contents.
-/

/-! ## The second launch's arrays, buffer by buffer (two of its windows stage one array) -/

section Arrays1

variable (V : (c : Dev nD) → (b : Ref sig .tc) → Buf (Elt F) ((c : Thread nD τ).loc b))

/-- The second launch's arrays: the shared input array held half by each input window, the output array whole. -/
theorem arrays1_eq (c : Dev nD) (Fn : (w : Fin cfg1.W) → Buf (Elt F) ((cfg1.win w).arr.view.loc (c : Thread nD τ))) :
    ((dat1 V c).arrays Fn : sProp 𝕄)
      = iprop((((c : Thread nD τ).loc main_v5) ↦{fullShare.left} Fn 0) ∗ (((c : Thread nD τ).loc main_v5) ↦{fullShare.right} Fn 1)
          ∗ (((c : Thread nD τ).loc main_v6) ↦{fullShare} Fn 2)) := by
  unfold Pipeline.Dat.arrays
  rw [bigSep_W1, (arr_whole1 0).set_eq_univ, (arr_whole1 2).set_eq_univ]
  rfl

/-- The distinct buffers behind them. -/
theorem arrBufs1_eq (c : Dev nD) (Vc : (b : Ref sig .tc) → Buf (Elt F) ((c : Thread nD τ).loc b)) :
    (Pipeline.arrBufs (Ix := Unit) (Name := ℕ) (U := UR sig nD τ) (Lvl := ℕ) spec1 c Vc : sProp 𝕄)
      = iprop((((c : Thread nD τ).loc main_v5) ↦{fullShare} Vc main_v5) ∗ (((c : Thread nD τ).loc main_v6) ↦{fullShare} Vc main_v6)) := by
  unfold Pipeline.arrBufs
  rw [show Finset.univ.image (Pipeline.arrRef spec1) = {main_v5, main_v6} from by decide,
    bigSep_insert (by decide), bigSep_singleton]
  rfl

end Arrays1

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection launch: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the pairwise launch: its output array at what the pipeline leaves, every other buffer as entered. -/
def W4 (c : Dev nD) : Valuation τ sig (Elt F) :=
  Function.update (W3 m ρ c) (Proc.devRef .tc main_v6) ((dat1 (V3 m ρ) c).arrAt 2 cfg1.N)
theorem W4_v6 (c : Dev nD) : W4 m ρ c (Proc.devRef .tc main_v6) = (dat1 (V3 m ρ) c).arrAt 2 cfg1.N := by
  unfold W4; exact Function.update_self _ _ _
theorem W4_of_ne (c : Dev nD) (b : Ref sig .tc) (hb : b ≠ main_v6) :
    W4 m ρ c (Proc.devRef .tc b) = W3 m ρ c (Proc.devRef .tc b) := by
  unfold W4; exact Function.update_of_ne (StableHlo.devRef_ne_of_ne hb) _ _
abbrev V4 : (c : Dev nD) → (b : Ref sig .tc) → Buf (Elt F) ((c : Thread nD τ).loc b) := fun c b => W4 m ρ c b
abbrev W5 : Dev nD → Valuation τ sig (Elt F) := fun c => StableHlo.after hostOps2 (W4 m ρ c)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The launches as segments -/

set_option backward.isDefEq.respectTransparency.types false in
/-- The projection launch: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The unscoped buffers at a valuation are the two distinct array buffers of the pairwise launch and the rest. -/
theorem held_split1 (c : Dev nD) (W : Valuation τ sig (Elt F)) :
    (StableHlo.held (c : Thread nD τ) (Pipeline.ucRefs τ sig) W : sProp 𝕄)
      = iprop(((((c : Thread nD τ).loc main_v5) ↦{fullShare} (W (Proc.devRef .tc main_v5) : Buf (Elt F) ((c : Thread nD τ).loc main_v5)))
            ∗ (((c : Thread nD τ).loc main_v6) ↦{fullShare} (W (Proc.devRef .tc main_v6) : Buf (Elt F) ((c : Thread nD τ).loc main_v6))))
          ∗ Pipeline.unscopedRest (Ix := Unit) (Name := ℕ) (U := UR sig nD τ) (Lvl := ℕ) spec1 c (fun b => W (Proc.devRef .tc b))) := by
  rw [← Pipeline.unscopedBufs_held (Ix := Unit) (Name := ℕ) (U := UR sig nD τ) (Lvl := ℕ) c W,
    Pipeline.unscopedBufs_split₀ cfgs 1 (by decide) c (fun b => W (Proc.devRef .tc b))]
  show iprop((Pipeline.arrBufs (Ix := Unit) (Name := ℕ) (U := UR sig nD τ) (Lvl := ℕ) spec1 c (fun b => W (Proc.devRef .tc b)) : sProp 𝕄) ∗ _) = _
  rw [arrBufs1_eq]
  rfl

/-- No buffer but the output array differs across the pairwise launch. -/
theorem rest_eq1 (c : Dev nD) :
    (Pipeline.unscopedRest (Ix := Unit) (Name := ℕ) (U := UR sig nD τ) (Lvl := ℕ) spec1 c (fun b => W4 m ρ c (Proc.devRef .tc b)) : sProp 𝕄)
      = Pipeline.unscopedRest spec1 c (fun b => W3 m ρ c (Proc.devRef .tc b)) := by
  unfold Pipeline.unscopedRest
  exact bigSep_congr fun b hb => by
    dsimp only
    rw [W4_of_ne m ρ c b (fun e => (Finset.mem_sdiff.mp hb).2 (e ▸ (by decide : main_v6 ∈ Finset.univ.image (Pipeline.arrRef spec1))))]

set_option backward.isDefEq.respectTransparency.types false in
/-- The pairwise launch: entered from every unscoped buffer at `W3`, left at `W4`. The shared input array is split
    between its two windows at entry and joined again at exit. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none, held_split1]
    rw [show (((pdats m ρ 1 c).arrays fun w => (pdats m ρ 1 c).arrAt w 0) : sProp 𝕄)
        = ((dat1 (V3 m ρ) c).arrays fun w => (dat1 (V3 m ρ) c).arrAt w 0) from rfl, arrays1_eq]
    have hsh : ∀ f : Buf (Elt F) ((c : Thread nD τ).loc main_v5), ((((c : Thread nD τ).loc main_v5) ↦{fullShare} f) : sProp 𝕄)
        ⊢ iprop((((c : Thread nD τ).loc main_v5) ↦{fullShare.left} f) ∗ (((c : Thread nD τ).loc main_v5) ↦{fullShare.right} f)) :=
      fun f => (pointsTo_share (PosShare.mem_left_op_right fullShare)).1
    iintro ⟨⟨⟨⟨H5, H6⟩, Hrest⟩, Hp, HO⟩, -, -⟩
    ihave H5' := (hsh _) $$ H5
    icases H5' with ⟨H5l, H5r⟩
    imodintro
    isplitl [H5l H5r H6]
    · isplitl [H5l]; · iexact H5l
      isplitl [H5r]; · iexact H5r
      iexact H6
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    rw [held_split1, rest_eq1]
    rw [show (((pdats m ρ 1 c).arrays fun w => (pdats m ρ 1 c).arrAt w (Pipeline.pin (pcfgs (F := F)) adm 1).N) : sProp 𝕄)
        = ((dat1 (V3 m ρ) c).arrays fun w => (dat1 (V3 m ρ) c).arrAt w cfg1.N) from rfl, arrays1_eq]
    dsimp only
    rw [(dat1 (V3 m ρ) c).arrAt_in 0 rfl, (dat1 (V3 m ρ) c).arrAt_in 1 rfl, W4_v6, W4_of_ne m ρ c main_v5 (by decide)]
    iintro ⟨⟨H5l, H5r, H6⟩, HO, HY, Hrest⟩
    imodintro
    isplitl [H5l H5r H6 Hrest]
    · isplitl [H5l H5r H6]
      · isplitl [H5l H5r]
        · iapply (pointsTo_share (PosShare.mem_left_op_right fullShare)).2
          isplitl [H5l]; · iexact H5l
          iexact H5r
        iexact H6
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every unscoped buffer ends at the last boundary's contents `W5`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => (show iprop(StableHlo.held (c : Thread nD τ) (Pipeline.ucRefs τ sig) (W5 m ρ c) ∗ R c)
          ⊢ iprop(Tₙ m ρ c ∗ ∃ W, owes (c : Thread nD τ) (0 : CellTallies nD τ sig Unit) W) from by
      iintro ⟨Hh, Hp, Ho⟩
      isplitl [Hh Hp]
      · isplitl [Hh]; · iexact Hh
        iexact Hp
      iexact Ho)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

end Cert.KernelIdeal.Hand

end
-- ==== Proof.RunArgs.lean ====
import proofs.«124760_j50345606644410_1_alg».proof.Proof.Run

set_option maxRecDepth 16384

noncomputable section

namespace Cert.KernelIdeal.Hand

open Idealize.ShloMosaic Idealize.ShloMosaic.TcCoe Idealize.ShloMosaic.Tactic
open Idealize.ShloMosaic.Pipeline (Dat Cfg Window BodyObligation cellOf)
open Cert.KernelIdeal Cert.KernelIdeal.Gen

variable {F : FTy → Type} [FloatOps F]
variable (m : (ℓ : Loc nD τ sig) → Buf (Elt F) ℓ) (ρ : Dev nD → PrngReg)

/-!
# The arguments and the result at the last boundary

The two arguments are written by no host operation and are the array of no launch, so the fold of boundary contents
at an argument's buffer walks back, boundary by boundary, to the launch memory. The result buffer is written once, by
the last host operation: the concatenation, along the second axis, of the first argument (as launched) and of the
pairwise launch's output array.
-/

/-- A buffer that none of a stretch's host operations writes is left as entered: the stretch's written buffers are
    listed one by one and told apart from the given one as references. -/
local macro "not_written" : tactic =>
  `(tactic| (refine List.forall_iff_forall_mem.mp ?_
             simp only [hostOps0, hostOps1, hostOps2, List.Forall, StableHlo.nullary_writes, StableHlo.unary_writes,
               StableHlo.binary_writes, StableHlo.ternary_writes, StableHlo.quaternary_writes, StableHlo.reshape_writes,
               StableHlo.binaryIndexed_writes, Finset.mem_singleton]
             repeat' apply And.intro
             all_goals exact StableHlo.devRef_ne_of_ne (by decide)))

/-- The first argument before the last stretch of host operations: as launched. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) :=
        StableHlo.after_of_forall_not_mem (b := Proc.devRef .tc main_arg0) _ _ (by not_written)
    _ = W1 m ρ c (Proc.devRef .tc main_arg0) := W2_of_ne m ρ c main_arg0 (by decide)
    _ = W0 m ρ c (Proc.devRef .tc main_arg0) :=
        StableHlo.after_of_forall_not_mem (b := Proc.devRef .tc main_arg0) _ _ (by not_written)
    _ = m ((c : Thread nD τ).loc main_arg0) := rfl

/-- The first argument ends as launched. -/
theorem W5_main_arg0 (c : Dev nD) : W5 m ρ c (Proc.devRef .tc main_arg0) = m ((c : Thread nD τ).loc main_arg0) :=
  (StableHlo.after_of_forall_not_mem (b := Proc.devRef .tc main_arg0) _ _ (by not_written)).trans (W4_main_arg0 m ρ c)

/-- The second argument ends as launched. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) :=
        StableHlo.after_of_forall_not_mem (b := Proc.devRef .tc main_arg1) _ _ (by not_written)
    _ = W3 m ρ c (Proc.devRef .tc main_arg1) := W4_of_ne m ρ c main_arg1 (by decide)
    _ = W2 m ρ c (Proc.devRef .tc main_arg1) :=
        StableHlo.after_of_forall_not_mem (b := Proc.devRef .tc main_arg1) _ _ (by not_written)
    _ = W1 m ρ c (Proc.devRef .tc main_arg1) := W2_of_ne m ρ c main_arg1 (by decide)
    _ = W0 m ρ c (Proc.devRef .tc main_arg1) :=
        StableHlo.after_of_forall_not_mem (b := Proc.devRef .tc main_arg1) _ _ (by not_written)
    _ = m ((c : Thread nD τ).loc main_arg1) := rfl

/-- The result buffer ends at the concatenation of the first argument, as launched, and of the pairwise launch's
    output array. -/
theorem W5_main_v7 (c : Dev nD) :
    W5 m ρ c (Proc.devRef .tc main_v7)
      = concatenate S256x2176 1 [⟨S256x2048, m ((c : Thread nD τ).loc main_arg0)⟩,
          ⟨S256x128, (dat1 (V3 m ρ) c).arrAt 2 cfg1.N⟩] concatenates_S256x2048_S256x128_S256x2176_d1 := by
  show StableHlo.after hostOps2 _ (Proc.devRef .tc main_v7) = _
  after_results
  rw [W4_main_arg0, W4_v6]

end Cert.KernelIdeal.Hand

end
-- ==== Proof.KMath.lean ====
import proofs.«124760_j50345606644410_1_alg».proof.Proof.Gen.KernelIdeal.Skeleton
import proofs.«124760_j50345606644410_1_alg».proof.Proof.Spec
import Idealize.ShloMosaic.Lib.Pipeline.Value
import Idealize.ShloMosaic.Lib.ValueIdx
import Idealize.ShloMosaic.Lib.ValueIdxCoords
import Idealize.ShloMosaic.Lib.ValueLayout
import Idealize.ShloMosaic.Lib.Pipeline.FrameBody
import Idealize.ShloMosaic.PureOps.Ideal.Laws

/-!
# The kernel's payloads at the ideal values, read at an index

Pure functions only. Each payload of the two kernel functions is read at explicit coordinates:

* the matrix product of the first function is the sum over the contracted coordinate of the products of the entries;
* one accumulation step of the second function adds, at `(i, jj, o)`, the absolute value `max y (-y)` of the
  difference `y` of one slice of the resident block at `(i, o)` and one slice of the moving block at `(jj, o)`;
* the thirty-two steps in order, from the zero array, give the sum over the slices of those absolute values;
* the final reduction sums `exp (-s)` over the leading coordinate.
-/

noncomputable section

namespace Cert.KernelIdeal.KVal

open Cert.KernelIdeal Cert.KernelIdeal.Gen Idealize.ShloMosaic Idealize.SL.Sem Idealize.ShloMosaic.ValueIdx

/-! ## The matrix product -/

/-- The left operand's row coordinate is the output's row. -/
theorem mm_lhs_0 (j : S256x1024.Idx) (c : dot_S256x2048_S2048x1024_S256x1024_1_0_0_1_n_n.contr.Idx) :
    (dot_S256x2048_S2048x1024_S256x1024_1_0_0_1_n_n.lhsIdx j c 0).val = (j 0).val := by
  unfold DotDims.lhsIdx
  rw [dif_neg (show ¬(0 : Fin S256x2048.rank) ∈ dot_S256x2048_S2048x1024_S256x1024_1_0_0_1_n_n.lhsBatch by decide),
    dif_pos (show (0 : Fin S256x2048.rank) ∈ dot_S256x2048_S2048x1024_S256x1024_1_0_0_1_n_n.lhsNonContracting by decide)]
  rfl
/-- The left operand's column coordinate is the contracted coordinate. -/
theorem mm_lhs_1 (j : S256x1024.Idx) (c : dot_S256x2048_S2048x1024_S256x1024_1_0_0_1_n_n.contr.Idx) :
    (dot_S256x2048_S2048x1024_S256x1024_1_0_0_1_n_n.lhsIdx j c 1).val = (c ⟨0, by decide⟩).val :=
  dot_S256x2048_S2048x1024_S256x1024_1_0_0_1_n_n.lhsIdx_val_of_single rfl j c
/-- The right operand's row coordinate is the contracted coordinate. -/
theorem mm_rhs_0 (j : S256x1024.Idx) (c : dot_S256x2048_S2048x1024_S256x1024_1_0_0_1_n_n.contr.Idx) :
    (dot_S256x2048_S2048x1024_S256x1024_1_0_0_1_n_n.rhsIdx j c 0).val = (c ⟨0, by decide⟩).val :=
  dot_S256x2048_S2048x1024_S256x1024_1_0_0_1_n_n.rhsIdx_val_of_single rfl j c
/-- The right operand's column coordinate is the output's column. -/
theorem mm_rhs_1 (j : S256x1024.Idx) (c : dot_S256x2048_S2048x1024_S256x1024_1_0_0_1_n_n.contr.Idx) :
    (dot_S256x2048_S2048x1024_S256x1024_1_0_0_1_n_n.rhsIdx j c 1).val = (j 1).val := by
  unfold DotDims.rhsIdx
  rw [dif_neg (show ¬(1 : Fin S2048x1024.rank) ∈ dot_S256x2048_S2048x1024_S256x1024_1_0_0_1_n_n.rhsBatch by decide),
    dif_pos (show (1 : Fin S2048x1024.rank) ∈ dot_S256x2048_S2048x1024_S256x1024_1_0_0_1_n_n.rhsNonContracting by decide)]
  rfl

/-- The matrix product's payload at `(p, q)`: the two casts are to the same shape, hence the identity; the accumulator is
    the zero splat; the one contracted axis is re-indexed by its coordinate. -/
theorem mm_pay (a : Vec Ideal S256x2048 .bf16) (b : Vec Ideal S2048x1024 .bf16) (p : Fin 256) (q : Fin 1024) :
    k0_pay1 (F := Ideal) a b (ix2 p q) = ∑ d : Fin 2048, a (ix2 p d) * b (ix2 d q) := by
  unfold k0_pay1
  simp only [shapeCast_self]
  show FloatOps.matmul (F := Ideal) dot_S256x2048_S2048x1024_S256x1024_1_0_0_1_n_n none (a : FVec Ideal S256x2048 .bf16)
      (b : FVec Ideal S2048x1024 .bf16) (constant (F := Ideal) S256x1024 .f32 0x00000000#32) (ix2 p q) = _
  rw [Ideal.matmul_constant_zero_apply,
    ← Equiv.sum_comp (contrEquiv1 dot_S256x2048_S2048x1024_S256x1024_1_0_0_1_n_n 2048 rfl rfl).symm]
  refine Finset.sum_congr rfl fun d _ => ?_
  have hd := contrEquiv1_symm_val dot_S256x2048_S2048x1024_S256x1024_1_0_0_1_n_n 2048 rfl rfl d
  have el : dot_S256x2048_S2048x1024_S256x1024_1_0_0_1_n_n.lhsIdx (ix2 p q)
      ((contrEquiv1 dot_S256x2048_S2048x1024_S256x1024_1_0_0_1_n_n 2048 rfl rfl).symm d) = ix2 p d := funext fun ax => Fin.ext (by
    match ax with
    | ⟨0, _⟩ => exact mm_lhs_0 _ _
    | ⟨1, _⟩ => exact (mm_lhs_1 _ _).trans hd)
  have er : dot_S256x2048_S2048x1024_S256x1024_1_0_0_1_n_n.rhsIdx (ix2 p q)
      ((contrEquiv1 dot_S256x2048_S2048x1024_S256x1024_1_0_0_1_n_n 2048 rfl rfl).symm d) = ix2 d q := funext fun ax => Fin.ext (by
    match ax with
    | ⟨0, _⟩ => exact (mm_rhs_0 _ _).trans hd
    | ⟨1, _⟩ => exact mm_rhs_1 _ _)
  rw [el, er]

/-! ## One accumulation step -/

section Layout
variable {α : Type}

/-- An `[a, b]` array cast to `[a, 1, b]` reads, at `(i, u, j)`, the operand at `(i, j)`: the two row-major positions
    agree because the middle axis has one coordinate. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, c]` array broadcast to `[a, b, c]` reads, at `(i, j, o)`, the operand at `(i, 0, o)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (o : Fin c) :
    broadcastTo ⟨3, ![a, b, c]⟩ v h (ix3 i j o) = v (ix3 i (0 : Fin 1) o) := by
  refine broadcastTo_apply v h (ix3 i j o) (ix3 i (0 : Fin 1) o) fun ax => ?_
  match ax with
  | ⟨0, _⟩ =>
    show i.val = if a = 1 then 0 else i.val
    split
    · have := i.isLt; omega
    · rfl
  | ⟨1, _⟩ => rfl
  | ⟨2, _⟩ =>
    show o.val = if c = 1 then 0 else o.val
    split
    · have := o.isLt; omega
    · rfl

/-- A `[1, b, c]` array broadcast to `[a, b, c]` reads, at `(i, j, o)`, the operand at `(0, j, o)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (o : Fin c) :
    broadcastTo ⟨3, ![a, b, c]⟩ v h (ix3 i j o) = v (ix3 (0 : Fin 1) j o) := by
  refine broadcastTo_apply v h (ix3 i j o) (ix3 (0 : Fin 1) j o) fun ax => ?_
  match ax with
  | ⟨0, _⟩ => rfl
  | ⟨1, _⟩ =>
    show j.val = if b = 1 then 0 else j.val
    split
    · have := j.isLt; omega
    · rfl
  | ⟨2, _⟩ =>
    show o.val = if c = 1 then 0 else o.val
    split
    · have := o.isLt; omega
    · rfl

end Layout

section Step
variable {F : FTy → Type} [FloatOps F]

/-- A slice `[1, 256, 128]` of the resident block spread over the 64 rows of the moving block: `[256, 64, 128]`. -/
def bcA (a : Vec F S1x256x128 .f32) : FVec F S256x64x128 .f32 :=
  broadcastTo S256x64x128 (shapeCast S256x1x128 (shapeCast S256x128 a shapeCasts_S1x256x128_S256x128) shapeCasts_S256x128_S256x1x128) broadcasts_S256x1x128_S256x64x128

/-- A slice `[1, 64, 128]` of the moving block spread over the 256 rows of the resident block: `[256, 64, 128]`. -/
def bcB (b : Vec F S1x64x128 .f32) : FVec F S256x64x128 .f32 :=
  broadcastTo S256x64x128 (shapeCast S1x64x128 (shapeCast S64x128 b shapeCasts_S1x64x128_S64x128) shapeCasts_S64x128_S1x64x128) broadcasts_S1x64x128_S256x64x128

/-- The spread resident slice at `(i, jj, o)` is the slice at `(0, i, o)`. -/
theorem bcA_apply (a : Vec F S1x256x128 .f32) (i : Fin 256) (jj : Fin 64) (o : Fin 128) :
    bcA a (ix3 i jj o) = a (ix3 (0 : Fin 1) i o) := by
  unfold bcA
  rw [broadcastTo_a1c_abc_apply, shapeCast_ab_a1b_apply, shapeCast_1ab_ab_apply]

/-- The spread moving slice at `(i, jj, o)` is the slice at `(0, jj, o)`. -/
theorem bcB_apply (b : Vec F S1x64x128 .f32) (i : Fin 256) (jj : Fin 64) (o : Fin 128) :
    bcB b (ix3 i jj o) = b (ix3 (0 : Fin 1) jj o) := by
  unfold bcB
  rw [broadcastTo_1bc_abc_apply, shapeCast_ab_1ab_apply, shapeCast_1ab_ab_apply]

/-- One accumulation step: the scratch plus the absolute value of the difference of the two spread slices. -/
def step (a : Vec F S1x256x128 .f32) (b : Vec F S1x64x128 .f32) (s : Vec F S256x64x128 .f32) : FVec F S256x64x128 .f32 :=
  addf s (absf (subf (broadcastTo S256x64x128 (shapeCast S256x1x128 (shapeCast S256x128 a shapeCasts_S1x256x128_S256x128) shapeCasts_S256x128_S256x1x128) broadcasts_S256x1x128_S256x64x128) (broadcastTo S256x64x128 (shapeCast S1x64x128 (shapeCast S64x128 b shapeCasts_S1x64x128_S64x128) shapeCasts_S64x128_S1x64x128) broadcasts_S1x64x128_S256x64x128)))

/-- The step is the payload of the unrolled loop's second iteration, word for word. -/
theorem k1_pay5_eq_step (a : Vec F S1x256x128 .f32) (b : Vec F S1x64x128 .f32) (s : Vec F S256x64x128 .f32) :
    k1_pay5 a b s = step a b s := rfl

/-- The step over the two named spreads. -/
theorem step_eq (a : Vec F S1x256x128 .f32) (b : Vec F S1x64x128 .f32) (s : Vec F S256x64x128 .f32) :
    step a b s = addf s (absf (subf (bcA a) (bcB b))) := rfl

end Step

/-- One step at `(i, jj, o)`, at the ideal values: the scratch there plus `|a(0, i, o) - b(0, jj, o)|`. -/
theorem step_apply (a : Vec Ideal S1x256x128 .f32) (b : Vec Ideal S1x64x128 .f32) (s : Vec Ideal S256x64x128 .f32)
    (i : Fin 256) (jj : Fin 64) (o : Fin 128) :
    step (F := Ideal) a b s (ix3 i jj o)
      = s (ix3 i jj o) + max (a (ix3 0 i o) - b (ix3 0 jj o)) (-(a (ix3 0 i o) - b (ix3 0 jj o))) := by
  show (s (ix3 i jj o) : EReal) + max (bcA (F := Ideal) a (ix3 i jj o) - bcB (F := Ideal) b (ix3 i jj o))
      (-(bcA (F := Ideal) a (ix3 i jj o) - bcB (F := Ideal) b (ix3 i jj o))) = _
  rw [bcA_apply, bcB_apply]

/-! ## The final reduction -/

/-- The store before the reduction passes the scratch through a cast to its own shape: the identity. -/
theorem k1_pay1_eq {F : FTy → Type} [FloatOps F] (s : FVec F S256x64x128 .f32) : k1_pay1 s = s := by
  unfold k1_pay1
  exact shapeCast_self _ _

/-- The source index over `(jj, o)` with `k` inserted on the reduced leading axis is `(k, jj, o)`. -/
theorem red_lift (jj : Fin 64) (o : Fin 128) (k : Fin 256) :
    reduces_S256x64x128_S64x128.lift (ix2 jj o) k = ix3 k jj o :=
  funext fun c => Fin.ext (by
    match c with
    | ⟨0, _⟩ => rfl
    | ⟨1, _⟩ => rfl
    | ⟨2, _⟩ => rfl)

/-- The final reduction's payload at `(jj, o)`: the sum over the leading coordinate of `exp (0 - s)`, that is of `exp (-s)`. -/
theorem red_pay (s : Vec Ideal S256x64x128 .f32) (jj : Fin 64) (o : Fin 128) :
    k1_pay2 (F := Ideal) s (ix2 jj o) = ∑ i : Fin 256, Ideal.exp (-(s (ix3 i jj o))) := by
  unfold k1_pay2
  refine (Ideal.multiReduction_add_single _ 0x00000000#32 reduces_S256x64x128_S64x128 (.inl rfl) rfl (ix2 jj o)).trans ?_
  show ∑ k : Fin 256, _ = _
  refine Finset.sum_congr rfl fun k _ => ?_
  rw [red_lift]
  show Ideal.exp (Ideal.ofBits .f32 0x00000000#32 - s (ix3 k jj o)) = _
  rw [Ideal.ofBits_zero_f32, zero_sub]

/-! ## A slice load at an index -/

section Load
variable {F : FTy → Type} [FloatOps F]

/-- Slice `k` of the resident `[32, 256, 128]` block, loaded as a `[1, 256, 128]` array through the unit-stride rectangle
    at `(k, 0, 0)`, reads at `(0, i, o)` the block at `(k, i, o)`. -/
theorem ld_all (x : Vec F S32x256x128 .f32) (k : Nat)
    (inb : ∀ a, (![k, 0, 0] : Fin 3 → Nat) a + S1x256x128.size a ≤ S32x256x128.size a) (hk : k < 32)
    (i : Fin 256) (o : Fin 128) :
    View.ld x (Rect.unit (s := S32x256x128) ![k, 0, 0] S1x256x128.size inb) (ix3 (0 : Fin 1) i o)
      = x (ix3 (⟨k, hk⟩ : Fin 32) i o) := by
  show x _ = x _
  refine congrArg x (funext fun c => Fin.ext ?_)
  match c with
  | ⟨0, _⟩ => show k + 1 * 0 = k; omega
  | ⟨1, _⟩ => show 0 + 1 * i.val = i.val; omega
  | ⟨2, _⟩ => show 0 + 1 * o.val = o.val; omega

/-- Slice `k` of the moving `[32, 64, 128]` block, loaded as a `[1, 64, 128]` array through the unit-stride rectangle at
    `(k, 0, 0)`, reads at `(0, jj, o)` the block at `(k, jj, o)`. -/
theorem ld_j (x : Vec F S32x64x128 .f32) (k : Nat)
    (inb : ∀ a, (![k, 0, 0] : Fin 3 → Nat) a + S1x64x128.size a ≤ S32x64x128.size a) (hk : k < 32)
    (jj : Fin 64) (o : Fin 128) :
    View.ld x (Rect.unit (s := S32x64x128) ![k, 0, 0] S1x64x128.size inb) (ix3 (0 : Fin 1) jj o)
      = x (ix3 (⟨k, hk⟩ : Fin 32) jj o) := by
  show x _ = x _
  refine congrArg x (funext fun c => Fin.ext ?_)
  match c with
  | ⟨0, _⟩ => show k + 1 * 0 = k; omega
  | ⟨1, _⟩ => show 0 + 1 * jj.val = jj.val; omega
  | ⟨2, _⟩ => show 0 + 1 * o.val = o.val; omega

end Load

/-! ## The whole accumulation -/

/-- The term slice `k` adds at `(i, jj, o)`: `|xall(k, i, o) - xj(k, jj, o)|`. -/
def term (xall : Vec Ideal S32x256x128 .f32) (xj : Vec Ideal S32x64x128 .f32) (i : Fin 256) (jj : Fin 64) (o : Fin 128)
    (k : Fin 32) : EReal :=
  max (xall (ix3 k i o) - xj (ix3 k jj o)) (-(xall (ix3 k i o) - xj (ix3 k jj o)))

/-- Slice `k` of the resident block is inside it. -/
theorem inb_all (k : Nat) (hk : k < 32) :
    ∀ a, (![k, 0, 0] : Fin 3 → Nat) a + S1x256x128.size a ≤ S32x256x128.size a := fun a => by
  match a with
  | ⟨0, _⟩ => show k + 1 ≤ 32; omega
  | ⟨1, _⟩ => show 0 + 256 ≤ 256; omega
  | ⟨2, _⟩ => show 0 + 128 ≤ 128; omega

/-- Slice `k` of the moving block is inside it. -/
theorem inb_j (k : Nat) (hk : k < 32) :
    ∀ a, (![k, 0, 0] : Fin 3 → Nat) a + S1x64x128.size a ≤ S32x64x128.size a := fun a => by
  match a with
  | ⟨0, _⟩ => show k + 1 ≤ 32; omega
  | ⟨1, _⟩ => show 0 + 64 ≤ 64; omega
  | ⟨2, _⟩ => show 0 + 128 ≤ 128; omega

section Chain
variable {F : FTy → Type} [FloatOps F]

/-- The scratch after the first `n` steps, from the zero array. -/
def acc (xall : Vec F S32x256x128 .f32) (xj : Vec F S32x64x128 .f32) : (n : Nat) → n ≤ 32 → FVec F S256x64x128 .f32
  | 0, _ => k1_pay3
  | n + 1, h =>
    step (View.ld xall (Rect.unit (s := S32x256x128) ![n, 0, 0] S1x256x128.size (inb_all n (by omega))))
      (View.ld xj (Rect.unit (s := S32x64x128) ![n, 0, 0] S1x64x128.size (inb_j n (by omega))))
      (acc xall xj n (by omega))

/-- The thirty-two steps in order, slice 0 first, from the zero array. -/
def chain (xall : Vec F S32x256x128 .f32) (xj : Vec F S32x64x128 .f32) : FVec F S256x64x128 .f32 :=
  (k1_pay3 : FVec F S256x64x128 .f32)
    |> step (View.ld xall (Rect.unit (s := S32x256x128) ![0, 0, 0] S1x256x128.size inb_S32x256x128_S1x256x128_0_0_0)) (View.ld xj (Rect.unit (s := S32x64x128) ![0, 0, 0] S1x64x128.size inb_S32x64x128_S1x64x128_0_0_0))
    |> step (View.ld xall (Rect.unit (s := S32x256x128) ![1, 0, 0] S1x256x128.size inb_S32x256x128_S1x256x128_1_0_0)) (View.ld xj (Rect.unit (s := S32x64x128) ![1, 0, 0] S1x64x128.size inb_S32x64x128_S1x64x128_1_0_0))
    |> step (View.ld xall (Rect.unit (s := S32x256x128) ![2, 0, 0] S1x256x128.size inb_S32x256x128_S1x256x128_2_0_0)) (View.ld xj (Rect.unit (s := S32x64x128) ![2, 0, 0] S1x64x128.size inb_S32x64x128_S1x64x128_2_0_0))
    |> step (View.ld xall (Rect.unit (s := S32x256x128) ![3, 0, 0] S1x256x128.size inb_S32x256x128_S1x256x128_3_0_0)) (View.ld xj (Rect.unit (s := S32x64x128) ![3, 0, 0] S1x64x128.size inb_S32x64x128_S1x64x128_3_0_0))
    |> step (View.ld xall (Rect.unit (s := S32x256x128) ![4, 0, 0] S1x256x128.size inb_S32x256x128_S1x256x128_4_0_0)) (View.ld xj (Rect.unit (s := S32x64x128) ![4, 0, 0] S1x64x128.size inb_S32x64x128_S1x64x128_4_0_0))
    |> step (View.ld xall (Rect.unit (s := S32x256x128) ![5, 0, 0] S1x256x128.size inb_S32x256x128_S1x256x128_5_0_0)) (View.ld xj (Rect.unit (s := S32x64x128) ![5, 0, 0] S1x64x128.size inb_S32x64x128_S1x64x128_5_0_0))
    |> step (View.ld xall (Rect.unit (s := S32x256x128) ![6, 0, 0] S1x256x128.size inb_S32x256x128_S1x256x128_6_0_0)) (View.ld xj (Rect.unit (s := S32x64x128) ![6, 0, 0] S1x64x128.size inb_S32x64x128_S1x64x128_6_0_0))
    |> step (View.ld xall (Rect.unit (s := S32x256x128) ![7, 0, 0] S1x256x128.size inb_S32x256x128_S1x256x128_7_0_0)) (View.ld xj (Rect.unit (s := S32x64x128) ![7, 0, 0] S1x64x128.size inb_S32x64x128_S1x64x128_7_0_0))
    |> step (View.ld xall (Rect.unit (s := S32x256x128) ![8, 0, 0] S1x256x128.size inb_S32x256x128_S1x256x128_8_0_0)) (View.ld xj (Rect.unit (s := S32x64x128) ![8, 0, 0] S1x64x128.size inb_S32x64x128_S1x64x128_8_0_0))
    |> step (View.ld xall (Rect.unit (s := S32x256x128) ![9, 0, 0] S1x256x128.size inb_S32x256x128_S1x256x128_9_0_0)) (View.ld xj (Rect.unit (s := S32x64x128) ![9, 0, 0] S1x64x128.size inb_S32x64x128_S1x64x128_9_0_0))
    |> step (View.ld xall (Rect.unit (s := S32x256x128) ![10, 0, 0] S1x256x128.size inb_S32x256x128_S1x256x128_10_0_0)) (View.ld xj (Rect.unit (s := S32x64x128) ![10, 0, 0] S1x64x128.size inb_S32x64x128_S1x64x128_10_0_0))
    |> step (View.ld xall (Rect.unit (s := S32x256x128) ![11, 0, 0] S1x256x128.size inb_S32x256x128_S1x256x128_11_0_0)) (View.ld xj (Rect.unit (s := S32x64x128) ![11, 0, 0] S1x64x128.size inb_S32x64x128_S1x64x128_11_0_0))
    |> step (View.ld xall (Rect.unit (s := S32x256x128) ![12, 0, 0] S1x256x128.size inb_S32x256x128_S1x256x128_12_0_0)) (View.ld xj (Rect.unit (s := S32x64x128) ![12, 0, 0] S1x64x128.size inb_S32x64x128_S1x64x128_12_0_0))
    |> step (View.ld xall (Rect.unit (s := S32x256x128) ![13, 0, 0] S1x256x128.size inb_S32x256x128_S1x256x128_13_0_0)) (View.ld xj (Rect.unit (s := S32x64x128) ![13, 0, 0] S1x64x128.size inb_S32x64x128_S1x64x128_13_0_0))
    |> step (View.ld xall (Rect.unit (s := S32x256x128) ![14, 0, 0] S1x256x128.size inb_S32x256x128_S1x256x128_14_0_0)) (View.ld xj (Rect.unit (s := S32x64x128) ![14, 0, 0] S1x64x128.size inb_S32x64x128_S1x64x128_14_0_0))
    |> step (View.ld xall (Rect.unit (s := S32x256x128) ![15, 0, 0] S1x256x128.size inb_S32x256x128_S1x256x128_15_0_0)) (View.ld xj (Rect.unit (s := S32x64x128) ![15, 0, 0] S1x64x128.size inb_S32x64x128_S1x64x128_15_0_0))
    |> step (View.ld xall (Rect.unit (s := S32x256x128) ![16, 0, 0] S1x256x128.size inb_S32x256x128_S1x256x128_16_0_0)) (View.ld xj (Rect.unit (s := S32x64x128) ![16, 0, 0] S1x64x128.size inb_S32x64x128_S1x64x128_16_0_0))
    |> step (View.ld xall (Rect.unit (s := S32x256x128) ![17, 0, 0] S1x256x128.size inb_S32x256x128_S1x256x128_17_0_0)) (View.ld xj (Rect.unit (s := S32x64x128) ![17, 0, 0] S1x64x128.size inb_S32x64x128_S1x64x128_17_0_0))
    |> step (View.ld xall (Rect.unit (s := S32x256x128) ![18, 0, 0] S1x256x128.size inb_S32x256x128_S1x256x128_18_0_0)) (View.ld xj (Rect.unit (s := S32x64x128) ![18, 0, 0] S1x64x128.size inb_S32x64x128_S1x64x128_18_0_0))
    |> step (View.ld xall (Rect.unit (s := S32x256x128) ![19, 0, 0] S1x256x128.size inb_S32x256x128_S1x256x128_19_0_0)) (View.ld xj (Rect.unit (s := S32x64x128) ![19, 0, 0] S1x64x128.size inb_S32x64x128_S1x64x128_19_0_0))
    |> step (View.ld xall (Rect.unit (s := S32x256x128) ![20, 0, 0] S1x256x128.size inb_S32x256x128_S1x256x128_20_0_0)) (View.ld xj (Rect.unit (s := S32x64x128) ![20, 0, 0] S1x64x128.size inb_S32x64x128_S1x64x128_20_0_0))
    |> step (View.ld xall (Rect.unit (s := S32x256x128) ![21, 0, 0] S1x256x128.size inb_S32x256x128_S1x256x128_21_0_0)) (View.ld xj (Rect.unit (s := S32x64x128) ![21, 0, 0] S1x64x128.size inb_S32x64x128_S1x64x128_21_0_0))
    |> step (View.ld xall (Rect.unit (s := S32x256x128) ![22, 0, 0] S1x256x128.size inb_S32x256x128_S1x256x128_22_0_0)) (View.ld xj (Rect.unit (s := S32x64x128) ![22, 0, 0] S1x64x128.size inb_S32x64x128_S1x64x128_22_0_0))
    |> step (View.ld xall (Rect.unit (s := S32x256x128) ![23, 0, 0] S1x256x128.size inb_S32x256x128_S1x256x128_23_0_0)) (View.ld xj (Rect.unit (s := S32x64x128) ![23, 0, 0] S1x64x128.size inb_S32x64x128_S1x64x128_23_0_0))
    |> step (View.ld xall (Rect.unit (s := S32x256x128) ![24, 0, 0] S1x256x128.size inb_S32x256x128_S1x256x128_24_0_0)) (View.ld xj (Rect.unit (s := S32x64x128) ![24, 0, 0] S1x64x128.size inb_S32x64x128_S1x64x128_24_0_0))
    |> step (View.ld xall (Rect.unit (s := S32x256x128) ![25, 0, 0] S1x256x128.size inb_S32x256x128_S1x256x128_25_0_0)) (View.ld xj (Rect.unit (s := S32x64x128) ![25, 0, 0] S1x64x128.size inb_S32x64x128_S1x64x128_25_0_0))
    |> step (View.ld xall (Rect.unit (s := S32x256x128) ![26, 0, 0] S1x256x128.size inb_S32x256x128_S1x256x128_26_0_0)) (View.ld xj (Rect.unit (s := S32x64x128) ![26, 0, 0] S1x64x128.size inb_S32x64x128_S1x64x128_26_0_0))
    |> step (View.ld xall (Rect.unit (s := S32x256x128) ![27, 0, 0] S1x256x128.size inb_S32x256x128_S1x256x128_27_0_0)) (View.ld xj (Rect.unit (s := S32x64x128) ![27, 0, 0] S1x64x128.size inb_S32x64x128_S1x64x128_27_0_0))
    |> step (View.ld xall (Rect.unit (s := S32x256x128) ![28, 0, 0] S1x256x128.size inb_S32x256x128_S1x256x128_28_0_0)) (View.ld xj (Rect.unit (s := S32x64x128) ![28, 0, 0] S1x64x128.size inb_S32x64x128_S1x64x128_28_0_0))
    |> step (View.ld xall (Rect.unit (s := S32x256x128) ![29, 0, 0] S1x256x128.size inb_S32x256x128_S1x256x128_29_0_0)) (View.ld xj (Rect.unit (s := S32x64x128) ![29, 0, 0] S1x64x128.size inb_S32x64x128_S1x64x128_29_0_0))
    |> step (View.ld xall (Rect.unit (s := S32x256x128) ![30, 0, 0] S1x256x128.size inb_S32x256x128_S1x256x128_30_0_0)) (View.ld xj (Rect.unit (s := S32x64x128) ![30, 0, 0] S1x64x128.size inb_S32x64x128_S1x64x128_30_0_0))
    |> step (View.ld xall (Rect.unit (s := S32x256x128) ![31, 0, 0] S1x256x128.size inb_S32x256x128_S1x256x128_31_0_0)) (View.ld xj (Rect.unit (s := S32x64x128) ![31, 0, 0] S1x64x128.size inb_S32x64x128_S1x64x128_31_0_0))

/-- The explicit thirty-two steps are the accumulator after thirty-two steps. -/
theorem chain_eq_acc (xall : Vec F S32x256x128 .f32) (xj : Vec F S32x64x128 .f32) :
    chain xall xj = acc xall xj 32 (Nat.le_refl 32) := rfl

end Chain

/-- The zero array reads zero. -/
theorem k1_pay3_apply (j : S256x64x128.Idx) : k1_pay3 (F := Ideal) j = 0 := by
  unfold k1_pay3
  simp only [shapeCast_self]
  exact Ideal.ofBits_zero_f32

/-- After `n` steps the scratch at `(i, jj, o)` is the sum of the first `n` slices' terms: by induction, each step adding
    its slice's term on the right. -/
theorem acc_apply (xall : Vec Ideal S32x256x128 .f32) (xj : Vec Ideal S32x64x128 .f32) (i : Fin 256) (jj : Fin 64) (o : Fin 128) :
    ∀ (n : Nat) (h : n ≤ 32), acc (F := Ideal) xall xj n h (ix3 i jj o)
      = ∑ k : Fin n, term xall xj i jj o ⟨k.val, Nat.lt_of_lt_of_le k.isLt h⟩
  | 0, _ => by
    show k1_pay3 (F := Ideal) (ix3 i jj o) = _
    rw [k1_pay3_apply, Finset.univ_eq_empty, Finset.sum_empty]
  | n + 1, h => by
    show step (F := Ideal) _ _ (acc (F := Ideal) xall xj n (by omega)) (ix3 i jj o) = _
    rw [step_apply, acc_apply xall xj i jj o n (by omega), ld_all xall n _ (by omega), ld_j xj n _ (by omega),
      Fin.sum_univ_castSucc]
    rfl

/-- The whole accumulation at `(i, jj, o)`: the sum over the thirty-two slices of `|xall(k, i, o) - xj(k, jj, o)|`. -/
theorem chain_apply (xall : Vec Ideal S32x256x128 .f32) (xj : Vec Ideal S32x64x128 .f32) (i : Fin 256) (jj : Fin 64) (o : Fin 128) :
    chain (F := Ideal) xall xj (ix3 i jj o)
      = ∑ k : Fin 32, max (xall (ix3 k i o) - xj (ix3 k jj o)) (-(xall (ix3 k i o) - xj (ix3 k jj o))) := by
  rw [chain_eq_acc, acc_apply]
  rfl

end Cert.KernelIdeal.KVal

end
-- ==== Proof.V0.lean ====
import proofs.«124760_j50345606644410_1_alg».proof.Proof.R0
import proofs.«124760_j50345606644410_1_alg».proof.Proof.KMath
import Idealize.ShloMosaic.Lib.Pipeline.Value
import Idealize.ShloMosaic.Lib.ValueIdx

/-!
# The first launch: what the product array holds after the four write-backs

Point `t` of the grid multiplies the whole left matrix by columns `1024 t … 1024 t + 1023` of the right matrix and
writes the 256 × 1024 product back over the same columns of the output array. Entry `(p, n)` of the output is
therefore written by point `n / 1024` and by no other, and what is written there is `∑ d, A (p, d) * B (d, n)`: after
the last write-back the array is the product `A · B` of the two operand arrays, index by index.
-/

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

/-- The product of a 256 × 2048 array by a 2048 × 4096 array, index by index. -/
def G0 (A : Vec Ideal S256x2048 .bf16) (B : Vec Ideal S2048x4096 .bf16) : Vec Ideal S256x4096 .f32 :=
  fun j => ∑ d : Fin 2048, A (ix2 (j 0 : Fin 256) d) * B (ix2 d (j 1 : Fin 4096))

/-- The product at explicit coordinates. -/
theorem G0_apply (A : Vec Ideal S256x2048 .bf16) (B : Vec Ideal S2048x4096 .bf16) (p : Fin 256) (n : Fin 4096) :
    G0 A B (ix2 p n) = ∑ d : Fin 2048, A (ix2 p d) * B (ix2 d n) := rfl

theorem hz0 : (![0, 0] : Fin 2 → Nat) = fun _ => 0 := funext fun a => by fin_cases a <;> rfl

/-- The body's product of two blocks at an index of the output block, by its two coordinates. -/
theorem pay0_at (a : Vec Ideal S256x2048 .bf16) (b : Vec Ideal S2048x1024 .bf16) (j : S256x1024.Idx) :
    k0_pay1 (F := Ideal) a b j = ∑ d : Fin 2048, a (ix2 (j 0 : Fin 256) d) * b (ix2 d (j 1 : Fin 1024)) :=
  (congrArg (k0_pay1 (F := Ideal) a b) (eq_ix2 j)).trans (KVal.mm_pay a b (j 0) (j 1))

/-- The index maps over the grid: the left matrix's block never moves, the right matrix's and the output's blocks
    are at column block `t`. -/
theorem idx_facts0 : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

section
variable {F : FTy → Type} [FloatOps F]
variable (V : (c : Dev nD) → (b : Ref sig .tc) → Buf (Elt F) ((c : Thread nD τ).loc b))

/-- The left matrix's block at any point is the whole left matrix. -/
theorem iblk0_0_apply (c : Dev nD) (t : Fin cfg0.N) (x k : S256x2048.Idx)
    (hk0 : (k 0).val = (x 0).val) (hk1 : (k 1).val = (x 1).val) :
    (iblk0 V c 0 t : Vec F S256x2048 .bf16) x = (V c main_v1 : S256x2048.Idx → Elt F .bf16) k := by
  obtain ⟨e0, e1, -, -, -, -⟩ := idx_facts0 t
  unfold iblk0
  rw [View.read_apply]
  show V c main_v1 _ = V c main_v1 _
  congr 1
  funext a
  apply Fin.ext
  match a with
  | ⟨0, _⟩ => show win0_0.index t 0 * 256 + 1 * (x 0).val = (k 0).val; rw [e0, hk0]; omega
  | ⟨1, _⟩ => show win0_0.index t 1 * 2048 + 1 * (x 1).val = (k 1).val; rw [e1, hk1]; omega

/-- The right matrix's block at point `t` is its columns `1024 t … 1024 t + 1023`. -/
theorem iblk0_1_apply (c : Dev nD) (t : Fin cfg0.N) (x : S2048x1024.Idx) (k : S2048x4096.Idx)
    (hk0 : (k 0).val = (x 0).val) (hk1 : (k 1).val = t.val * 1024 + (x 1).val) :
    (iblk0 V c 1 t : Vec F S2048x1024 .bf16) x = (V c main_v2 : S2048x4096.Idx → Elt F .bf16) k := by
  obtain ⟨-, -, e2, e3, -, -⟩ := idx_facts0 t
  unfold iblk0
  rw [View.read_apply]
  show V c main_v2 _ = V c main_v2 _
  congr 1
  funext a
  apply Fin.ext
  match a with
  | ⟨0, _⟩ => show win0_1.index t 0 * 2048 + 1 * (x 0).val = (k 0).val; rw [e2, hk0]; omega
  | ⟨1, _⟩ => show win0_1.index t 1 * 1024 + 1 * (x 1).val = (k 1).val; rw [e3, hk1]; omega

end

variable (V : (c : Dev nD) → (b : Ref sig .tc) → Buf (Elt Ideal) ((c : Thread nD τ).loc b))

/-- What point `t` writes back is block `t` of the product of the two operand arrays as the launch finds them. -/
theorem flushed0_eq (c : Dev nD) (t : Fin cfg0.N) :
    (dat0 (F := Ideal) V c).flushed 2 t
      = ((cfg0.win 2).blk t).view.read (Elt Ideal) (G0 (V c main_v1) (V c main_v2)) := by
  show (cfg0.win 2).cut (grid0.coords t) ((dat0 (F := Ideal) V c).after 2 t) = _
  rw [after0_2]
  unfold out0_2
  rw [View.canon_unit_zero hz0]
  simp only [View.ld_unit_zero (S := S256x2048) hz0, View.ld_unit_zero (S := S2048x1024) hz0]
  obtain ⟨-, -, -, -, e4, e5⟩ := idx_facts0 t
  funext j
  show k0_pay1 (F := Ideal) (iblk0 V c 0 t) (iblk0 V c 1 t) j
    = G0 (V c main_v1) (V c main_v2) (((cfg0.win 2).blk t).view.emb j)
  refine (pay0_at _ _ j).trans ?_
  unfold G0
  refine Finset.sum_congr rfl fun d _ => ?_
  have h0 : ((((cfg0.win 2).blk t).view.emb j) 0).val = (j 0).val := by
    show win0_2.index t 0 * 256 + 1 * (j 0).val = (j 0).val; rw [e4]; omega
  have h1 : ((((cfg0.win 2).blk t).view.emb j) 1).val = t.val * 1024 + (j 1).val := by
    show win0_2.index t 1 * 1024 + 1 * (j 1).val = t.val * 1024 + (j 1).val; rw [e5]; omega
  exact congrArg₂ (· * ·) (iblk0_0_apply V c t _ _ h0 rfl) (iblk0_1_apply V c t _ _ rfl h1)

/-- An index of the output array is in point `t`'s block iff each coordinate is in the block's range on its axis. -/
theorem mem_blk0 (t : Fin cfg0.N) (i : S256x4096.Idx) :
    i ∈ ((cfg0.win 2).blk t).view.set ↔ ∀ a : Fin 2, win0_2.index t a * S256x1024.size a ≤ (i a).val
      ∧ (i a).val < win0_2.index t a * S256x1024.size a + S256x1024.size a := by
  show i ∈ ((View.whole main_v3).slice (win0_2.rect t)).set ↔ _
  rw [View.set_slice_whole, Rect.mem_set_unit]
  exact Iff.rfl

/-- Every index of the output array is in the block of the point its column names: column `n` is in block `n / 1024`. -/
theorem cover0 (i : S256x4096.Idx) :
    ∃ t : Fin cfg0.N, (cfg0.win 2).flush t = true ∧ i ∈ ((cfg0.win 2).blk t).view.set := by
  have hi0 : (i 0).val < 256 := (i 0).isLt
  have hi1 : (i 1).val < 4096 := (i 1).isLt
  have hN : grid0.N = 4 := N_0
  let t : Fin cfg0.N := ⟨(i 1).val / 1024, by show (i 1).val / 1024 < grid0.N; rw [hN]; omega⟩
  have ht : t.val = (i 1).val / 1024 := rfl
  obtain ⟨-, -, -, -, e4, e5⟩ := idx_facts0 t
  refine ⟨t, flush0_2 t, ?_⟩
  rw [mem_blk0]
  intro a
  match a with
  | ⟨0, _⟩ => show win0_2.index t 0 * 256 ≤ (i 0).val ∧ (i 0).val < win0_2.index t 0 * 256 + 256; rw [e4]; omega
  | ⟨1, _⟩ => show win0_2.index t 1 * 1024 ≤ (i 1).val ∧ (i 1).val < win0_2.index t 1 * 1024 + 1024; rw [e5, ht]; omega

/-- After the four write-backs the output array is the product of the two operand arrays. -/
theorem final0_fun (c : Dev nD) :
    (dat0 (F := Ideal) V c).arrAt 2 cfg0.N = G0 (V c main_v1) (V c main_v2) :=
  (dat0 (F := Ideal) V c).arrAt_eq_of_cover 2 (G0 (V c main_v1) (V c main_v2)) (fun t _ => flushed0_eq V c t) cover0

/-- The left operand array, the right operand array and the output array after the launch, at their literal shapes. -/
abbrev lhs0 (c : Dev nD) : Vec Ideal S256x2048 .bf16 := V c main_v1
abbrev rhs0 (c : Dev nD) : Vec Ideal S2048x4096 .bf16 := V c main_v2
abbrev prod0 (c : Dev nD) : Vec Ideal S256x4096 .f32 := (dat0 (F := Ideal) V c).arrAt 2 cfg0.N

/-- The same, entry by entry: entry `(p, n)` of the output is row `p` of the left array times column `n` of the right. -/
theorem final0 (c : Dev nD) (p : Fin 256) (n : Fin 4096) :
    prod0 V c (ix2 p n) = ∑ d : Fin 2048, lhs0 V c (ix2 p d) * rhs0 V c (ix2 d n) :=
  congrFun (final0_fun V c) (ix2 p n)

end Cert.KernelIdeal.Hand

end
-- ==== Proof.V1body.lean ====
import proofs.«124760_j50345606644410_1_alg».proof.Proof.R1
import proofs.«124760_j50345606644410_1_alg».proof.Proof.KMath

/-!
# The second kernel function's output block, read at an index

The unrolled loop of thirty-two accumulation steps is printed as payloads cut at different places; each of them is the
one function `step` of a resident slice, a moving slice and the scratch. With that, the body leaves one piece over the
whole output block — the final reduction of the scratch after the thirty-two steps — and at the ideal values the block at
`(jj, o)` is the sum over the rows `i` of `exp` of minus the L1 distance, over the thirty-two slices, between row `i` of the
resident block and row `jj` of the moving block at feature `o`.
-/

set_option maxRecDepth 65536

noncomputable section

namespace Cert.KernelIdeal.Hand

open Idealize.ShloMosaic Idealize.ShloMosaic.TcCoe Idealize.ShloMosaic.Tactic
open Idealize.SL Idealize.SL.Sem
open Idealize.ShloMosaic.ValueIdx
open Cert.KernelIdeal Cert.KernelIdeal.Gen Cert.KernelIdeal.KVal

/-! ## Every spelling of a step among the payloads is the step

The unrolled loop's thirty-two steps are cut into payloads at different places: a whole step, with or without a final cast to
the same shape; a step whose resident slice, or both slices, were cast or spread by an earlier payload; a step whose absolute
difference was taken by an earlier payload. Each spelling is the same function `step`; a cast to the same shape is the identity. -/

section Pays
variable {F : FTy → Type} [FloatOps F]

theorem k1_pay6_eq (s : FVec F S256x64x128 .f32) : k1_pay6 s = s := by
  unfold k1_pay6
  exact shapeCast_self _ _
theorem k1_pay9_eq (s : FVec F S256x64x128 .f32) : k1_pay9 s = s := by
  unfold k1_pay9
  exact shapeCast_self _ _
theorem k1_pay29_eq (s : FVec F S256x64x128 .f32) : k1_pay29 s = s := by
  unfold k1_pay29
  exact shapeCast_self _ _
theorem k1_pay32_eq (s : FVec F S256x64x128 .f32) : k1_pay32 s = s := by
  unfold k1_pay32
  exact shapeCast_self _ _
theorem k1_pay4_eq (a : Vec F S1x256x128 .f32) (b : Vec F S1x64x128 .f32) (s : Vec F S256x64x128 .f32) : k1_pay4 a b s = step a b s := by
  unfold k1_pay4
  exact shapeCast_self _ _
theorem k1_pay7_eq (a : Vec F S1x256x128 .f32) (b : Vec F S1x64x128 .f32) (s : Vec F S256x64x128 .f32) : k1_pay7 a b s = step a b s := by
  unfold k1_pay7
  exact shapeCast_self _ _
theorem k1_pay10_eq (a : Vec F S1x256x128 .f32) (b : Vec F S1x64x128 .f32) (s : Vec F S256x64x128 .f32) : k1_pay10 a b s = step a b s := by
  unfold k1_pay10
  exact shapeCast_self _ _
theorem k1_pay11_eq (a : Vec F S1x256x128 .f32) (b : Vec F S1x64x128 .f32) (s : Vec F S256x64x128 .f32) : k1_pay11 a b s = step a b s := by
  unfold k1_pay11
  exact shapeCast_self _ _
theorem k1_pay12_eq (a : Vec F S1x256x128 .f32) (b : Vec F S1x64x128 .f32) (s : Vec F S256x64x128 .f32) : k1_pay12 a b s = step a b s := by
  unfold k1_pay12
  exact shapeCast_self _ _
theorem k1_pay13_eq (a : Vec F S1x256x128 .f32) (b : Vec F S1x64x128 .f32) (s : Vec F S256x64x128 .f32) : k1_pay13 a b s = step a b s := by
  unfold k1_pay13
  exact shapeCast_self _ _
theorem k1_pay16_eq (a : Vec F S1x256x128 .f32) (b : Vec F S1x64x128 .f32) (s : Vec F S256x64x128 .f32) : k1_pay16 a b s = step a b s := by
  unfold k1_pay16
  exact shapeCast_self _ _
theorem k1_pay20_eq (a : Vec F S1x256x128 .f32) (b : Vec F S1x64x128 .f32) (s : Vec F S256x64x128 .f32) : k1_pay20 a b s = step a b s := by
  unfold k1_pay20
  exact shapeCast_self _ _
theorem k1_pay24_eq (a : Vec F S1x256x128 .f32) (b : Vec F S1x64x128 .f32) (s : Vec F S256x64x128 .f32) : k1_pay24 a b s = step a b s := by
  unfold k1_pay24
  exact shapeCast_self _ _
theorem k1_pay27_eq (a : Vec F S1x256x128 .f32) (b : Vec F S1x64x128 .f32) (s : Vec F S256x64x128 .f32) : k1_pay27 a b s = step a b s := by
  unfold k1_pay27
  exact shapeCast_self _ _
theorem k1_pay30_eq (a : Vec F S1x256x128 .f32) (b : Vec F S1x64x128 .f32) (s : Vec F S256x64x128 .f32) : k1_pay30 a b s = step a b s := by
  unfold k1_pay30
  exact shapeCast_self _ _
theorem k1_pay33_eq (a : Vec F S1x256x128 .f32) (b : Vec F S1x64x128 .f32) (s : Vec F S256x64x128 .f32) : k1_pay33 a b s = step a b s := by
  unfold k1_pay33
  exact shapeCast_self _ _
theorem k1_pay34_eq (a : Vec F S1x256x128 .f32) (b : Vec F S1x64x128 .f32) (s : Vec F S256x64x128 .f32) : k1_pay34 a b s = step a b s := by
  unfold k1_pay34
  exact shapeCast_self _ _
theorem k1_pay35_eq (a : Vec F S1x256x128 .f32) (b : Vec F S1x64x128 .f32) (s : Vec F S256x64x128 .f32) : k1_pay35 a b s = step a b s := by
  unfold k1_pay35
  exact shapeCast_self _ _
theorem k1_pay36_eq (a : Vec F S1x256x128 .f32) (b : Vec F S1x64x128 .f32) (s : Vec F S256x64x128 .f32) : k1_pay36 a b s = step a b s := by
  unfold k1_pay36
  exact shapeCast_self _ _
theorem k1_pay39_eq (a : Vec F S1x256x128 .f32) (b : Vec F S1x64x128 .f32) (s : Vec F S256x64x128 .f32) : k1_pay39 a b s = step a b s := by
  unfold k1_pay39
  exact shapeCast_self _ _
theorem k1_pay43_eq (a : Vec F S1x256x128 .f32) (b : Vec F S1x64x128 .f32) (s : Vec F S256x64x128 .f32) : k1_pay43 a b s = step a b s := by
  unfold k1_pay43
  exact shapeCast_self _ _
theorem k1_pay47_eq (a : Vec F S1x256x128 .f32) (b : Vec F S1x64x128 .f32) (s : Vec F S256x64x128 .f32) : k1_pay47 a b s = step a b s := by
  unfold k1_pay47
  exact shapeCast_self _ _
theorem k1_pay50_eq (a : Vec F S1x256x128 .f32) (b : Vec F S1x64x128 .f32) (s : Vec F S256x64x128 .f32) : k1_pay50 a b s = step a b s := by
  unfold k1_pay50
  exact shapeCast_self _ _
theorem k1_pay5_eq (a : Vec F S1x256x128 .f32) (b : Vec F S1x64x128 .f32) (s : Vec F S256x64x128 .f32) : k1_pay5 a b s = step a b s := rfl
theorem k1_pay8_eq (a : Vec F S1x256x128 .f32) (b : Vec F S1x64x128 .f32) (s : Vec F S256x64x128 .f32) : k1_pay8 a b s = step a b s := rfl
theorem k1_pay28_eq (a : Vec F S1x256x128 .f32) (b : Vec F S1x64x128 .f32) (s : Vec F S256x64x128 .f32) : k1_pay28 a b s = step a b s := rfl
theorem k1_pay31_eq (a : Vec F S1x256x128 .f32) (b : Vec F S1x64x128 .f32) (s : Vec F S256x64x128 .f32) : k1_pay31 a b s = step a b s := rfl
theorem k1_pay51_eq (a : Vec F S1x256x128 .f32) (b : Vec F S1x64x128 .f32) (s : Vec F S256x64x128 .f32) : k1_pay51 a b s = step a b s := rfl
theorem k1_pay15_eq (a : Vec F S1x256x128 .f32) (b : Vec F S1x64x128 .f32) (s : Vec F S256x64x128 .f32) : k1_pay15 (k1_pay14 a) b s = step a b s := by
  unfold k1_pay15 k1_pay14
  exact shapeCast_self _ _
theorem k1_pay38_eq (a : Vec F S1x256x128 .f32) (b : Vec F S1x64x128 .f32) (s : Vec F S256x64x128 .f32) : k1_pay38 (k1_pay37 a) b s = step a b s := by
  unfold k1_pay38 k1_pay37
  exact shapeCast_self _ _
theorem k1_pay19_eq (a : Vec F S1x256x128 .f32) (b : Vec F S1x64x128 .f32) (s : Vec F S256x64x128 .f32) : k1_pay19 (k1_pay17 a) (k1_pay18 b) s = step a b s := by
  unfold k1_pay19 k1_pay17 k1_pay18
  exact shapeCast_self _ _
theorem k1_pay42_eq (a : Vec F S1x256x128 .f32) (b : Vec F S1x64x128 .f32) (s : Vec F S256x64x128 .f32) : k1_pay42 (k1_pay40 a) (k1_pay41 b) s = step a b s := by
  unfold k1_pay42 k1_pay40 k1_pay41
  exact shapeCast_self _ _
theorem k1_pay23_eq (a : Vec F S1x256x128 .f32) (b : Vec F S1x64x128 .f32) (s : Vec F S256x64x128 .f32) : k1_pay23 (k1_pay21 a) (k1_pay22 b) s = step a b s := by
  unfold k1_pay23 k1_pay21 k1_pay22
  exact shapeCast_self _ _
theorem k1_pay46_eq (a : Vec F S1x256x128 .f32) (b : Vec F S1x64x128 .f32) (s : Vec F S256x64x128 .f32) : k1_pay46 (k1_pay44 a) (k1_pay45 b) s = step a b s := by
  unfold k1_pay46 k1_pay44 k1_pay45
  exact shapeCast_self _ _
theorem k1_pay26_eq (a : Vec F S1x256x128 .f32) (b : Vec F S1x64x128 .f32) (s : Vec F S256x64x128 .f32) : k1_pay26 (k1_pay25 a b) s = step a b s := by
  unfold k1_pay26 k1_pay25
  exact shapeCast_self _ _
theorem k1_pay49_eq (a : Vec F S1x256x128 .f32) (b : Vec F S1x64x128 .f32) (s : Vec F S256x64x128 .f32) : k1_pay49 (k1_pay48 a b) s = step a b s := by
  unfold k1_pay49 k1_pay48
  exact shapeCast_self _ _

end Pays

/-! ## The scratch read back, and the pieces the body leaves -/

section Pieces
variable {F : FTy → Type} [FloatOps F]

/-- The origin of the scratch's whole box, spelt as the constant zero function. -/
theorem hz3 : (![0, 0, 0] : Fin 3 → Nat) = fun _ => 0 := by
  funext a
  match a with
  | ⟨0, _⟩ => rfl
  | ⟨1, _⟩ => rfl
  | ⟨2, _⟩ => rfl

/-- The origin of the output block's whole box, spelt as the constant zero function. -/
theorem hz2 : (![0, 0] : Fin 2 → Nat) = fun _ => 0 := by
  funext a
  match a with
  | ⟨0, _⟩ => rfl
  | ⟨1, _⟩ => rfl

/-- A load of the whole scratch after a store of the whole scratch reads what that store wrote, whatever was stored
    before it: the last store covers every index. -/
theorem readCov_cons_scratch {sg : RefSig} {κ : Kind} {sp : Space} (v : View sg κ sp S256x64x128 .f32)
    (w : S256x64x128.Idx → Elt F .f32) (L : List (View.Piece (Elt F) S256x64x128 .f32)) :
    v.readCov ((⟨Rect.unit ![0, 0, 0] S256x64x128.size inb_S256x64x128_S256x64x128_0_0_0, w⟩ : View.Piece (Elt F) S256x64x128 .f32) :: L)
        (Rect.unit ![0, 0, 0] S256x64x128.size inb_S256x64x128_S256x64x128_0_0_0).toLoadRect = w := by
  rw [View.readCov_eq_canon', View.canon_cons_unit_zero hz3 inb_S256x64x128_S256x64x128_0_0_0 w L]
  exact View.ld_unit_zero hz3 inb_S256x64x128_S256x64x128_0_0_0 w

/-- The body leaves one piece over the whole output block: the final reduction of the scratch after the thirty-two
    steps. (The cast `k1_pay1` to the same shape is kept in the statement; `k1_pay1_eq` removes it.) -/
theorem pieces1_eq (c : Dev nD) (t : Fin cfg1.N) (x0 : Vec F S32x256x128 .f32) (x1 : Vec F S32x64x128 .f32) :
    pieces1 c t x0 x1 = [⟨r1_2, k1_pay2 (k1_pay1 (chain x0 x1))⟩] := by
  unfold pieces1 kernelRun1
  dsimp only
  sl_unfold_run_names
  simp only [↓readCov_cons_scratch, View.readAt_eq_ld, Memref.IsWhole.read_unread, k1_pay1_eq,
    k1_pay4_eq, k1_pay5_eq, k1_pay6_eq, k1_pay7_eq, k1_pay8_eq, k1_pay9_eq, k1_pay10_eq, k1_pay11_eq, k1_pay12_eq, k1_pay13_eq, k1_pay15_eq, k1_pay16_eq, k1_pay19_eq, k1_pay20_eq, k1_pay23_eq, k1_pay24_eq, k1_pay26_eq, k1_pay27_eq, k1_pay28_eq, k1_pay29_eq, k1_pay30_eq, k1_pay31_eq, k1_pay32_eq, k1_pay33_eq, k1_pay34_eq, k1_pay35_eq, k1_pay36_eq, k1_pay38_eq, k1_pay39_eq, k1_pay42_eq, k1_pay43_eq, k1_pay46_eq, k1_pay47_eq, k1_pay49_eq, k1_pay50_eq, k1_pay51_eq]
  rfl

end Pieces

/-! ## The output block at an index, at the ideal values -/

/-- The output block after the body at `(jj, o)`: the sum over the rows `i` of `exp` of minus the L1 distance, over the
    thirty-two slices, between row `i` of the resident block and row `jj` of the moving block at feature `o`. -/
theorem out1_2_apply (c : Dev nD) (t : Fin cfg1.N) (x0 : Vec Ideal S32x256x128 .f32) (x1 : Vec Ideal S32x64x128 .f32)
    (jj : Fin 64) (o : Fin 128) :
    out1_2 (F := Ideal) c t x0 x1 (ix2 jj o)
      = ∑ i : Fin 256, Ideal.exp (-(∑ k : Fin 32, max (x0 (ix3 k i o) - x1 (ix3 k jj o)) (-(x0 (ix3 k i o) - x1 (ix3 k jj o))))) := by
  unfold out1_2
  rw [pieces1_eq, View.canon_unit_zero hz2 inb_S64x128_S64x128_0_0, k1_pay1_eq, red_pay]
  refine Finset.sum_congr rfl fun i _ => ?_
  rw [chain_apply]

end Cert.KernelIdeal.Hand

end
-- ==== Proof.KLayout.lean ====
import proofs.«124760_j50345606644410_1_alg».proof.Proof.Gen.KernelIdeal.Launch
import Idealize.ShloMosaic.Lib.Pipeline.Value
import Idealize.ShloMosaic.Lib.ValueIdx

/-!
# The host's layout operations, read at an index

Between the two launches the host reshapes the 256 × 4096 product to rows × features × kernel dimensions — flat column
`f * 32 + k` is feature `f`, kernel dimension `k` — and moves the kernel dimension to the front. Before the first launch it
flattens the 2048 × 128 × 32 tensor to 2048 × 4096 the same way. Both are read here at explicit coordinates.
-/

noncomputable section

namespace Cert.KernelIdeal.Hand

open Idealize.ShloMosaic Idealize.ShloMosaic.ValueIdx
open Cert.KernelIdeal Cert.KernelIdeal.Gen

variable {α : Type}

/-- The reshaped product at `(i, f, k)` is the product at row `i`, flat column `f * 32 + k`: both have row-major
    position `i * 4096 + f * 32 + k`. -/
theorem resh_apply (M : S256x4096.Idx → α) (i : Fin 256) (f : Fin 128) (k : Fin 32) :
    shapeCast S256x128x32 M shapeCasts_S256x4096_S256x128x32 (ix3 i f k) = M (ix2 i ⟨f.val * 32 + k.val, by omega⟩) :=
  shapeCast_apply M shapeCasts_S256x4096_S256x128x32 _ _ (by
    rw [Shape.rowMajor_val_two, Shape.rowMajor_val_three]
    show i.val * 4096 + (f.val * 32 + k.val) = (i.val * 128 + f.val) * 32 + k.val
    omega)

/-- The transposed reshaped product at `(k, i, f)` — kernel dimension first — is the product at row `i`, flat column
    `f * 32 + k`: the transpose reads the reshaped array at `(i, f, k)`. -/
theorem tr_apply (M : S256x4096.Idx → α) (k : Fin 32) (i : Fin 256) (f : Fin 128) :
    transpose S32x256x128 [2, 0, 1] (shapeCast S256x128x32 M shapeCasts_S256x4096_S256x128x32)
        transposes_S256x128x32_S32x256x128_2_0_1 (ix3 k i f)
      = M (ix2 i ⟨f.val * 32 + k.val, by omega⟩) :=
  (transpose_apply [2, 0, 1] _ transposes_S256x128x32_S32x256x128_2_0_1 (ix3 k i f) (ix3 i f k) (fun b => by
    match b with
    | ⟨0, _⟩ => rfl
    | ⟨1, _⟩ => rfl
    | ⟨2, _⟩ => rfl)).trans (resh_apply M i f k)

/-- The flattened tensor at row `d`, flat column `f * 32 + k` is the tensor at `(d, f, k)`. -/
theorem reshT_apply (T : S2048x128x32.Idx → α) (d : Fin 2048) (f : Fin 128) (k : Fin 32) :
    shapeCast S2048x4096 T shapeCasts_S2048x128x32_S2048x4096 (ix2 d ⟨f.val * 32 + k.val, by omega⟩) = T (ix3 d f k) :=
  shapeCast_apply T shapeCasts_S2048x128x32_S2048x4096 _ _ (by
    rw [Shape.rowMajor_val_three, Shape.rowMajor_val_two]
    show (d.val * 128 + f.val) * 32 + k.val = d.val * 4096 + (f.val * 32 + k.val)
    omega)

end Cert.KernelIdeal.Hand

end
-- ==== Proof.V1.lean ====
import proofs.«124760_j50345606644410_1_alg».proof.Proof.R1
import proofs.«124760_j50345606644410_1_alg».proof.Proof.V1body
import Idealize.ShloMosaic.Lib.Pipeline.Value
import Idealize.ShloMosaic.Lib.ValueIdx

/-!
# The second launch: what the feature array holds after the four write-backs

The launch reads one array `P` (kernel dimension × row × feature) through two windows: whole, and 64 rows at a time.
Point `t` of the grid computes, for each of the rows `64 t … 64 t + 63` and each feature `f`, the sum over every row `i` of
`exp (-(∑ k, |P k i f - P k j f|))`, and writes the 64 × 128 result back over the same rows of the output array. Entry
`(j, f)` of the output is therefore written by point `j / 64` and by no other: after the last write-back the array is one
function of `P`, index by index.
-/

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

/-- The discrimination features of a projected batch stored kernel dimension first: at row `j`, feature `f`, the sum over
    every row `i` of `exp` of minus the L1 distance, over the kernel dimensions, between rows `i` and `j` at feature `f`. -/
def G1 (P : Vec Ideal S32x256x128 .f32) : Vec Ideal S256x128 .f32 :=
  fun j => ∑ i : Fin 256, Ideal.exp (-(∑ k : Fin 32,
    max (P (ix3 k i (j 1 : Fin 128)) - P (ix3 k (j 0 : Fin 256) (j 1 : Fin 128)))
      (-(P (ix3 k i (j 1 : Fin 128)) - P (ix3 k (j 0 : Fin 256) (j 1 : Fin 128))))))

/-- The features at explicit coordinates. -/
theorem G1_apply (P : Vec Ideal S32x256x128 .f32) (j : Fin 256) (f : Fin 128) :
    G1 P (ix2 j f) = ∑ i : Fin 256, Ideal.exp (-(∑ k : Fin 32,
      max (P (ix3 k i f) - P (ix3 k j f)) (-(P (ix3 k i f) - P (ix3 k j f))))) := rfl

/-- The body's output block at an index of the block, by its two coordinates. -/
theorem out1_at (c : Dev nD) (t : Fin cfg1.N) (x0 : Vec Ideal S32x256x128 .f32) (x1 : Vec Ideal S32x64x128 .f32)
    (j : S64x128.Idx) :
    out1_2 (F := Ideal) c t x0 x1 j = ∑ i : Fin 256, Ideal.exp (-(∑ k : Fin 32,
      max (x0 (ix3 k i (j 1 : Fin 128)) - x1 (ix3 k (j 0 : Fin 64) (j 1 : Fin 128)))
        (-(x0 (ix3 k i (j 1 : Fin 128)) - x1 (ix3 k (j 0 : Fin 64) (j 1 : Fin 128)))))) :=
  (congrArg (out1_2 (F := Ideal) c t x0 x1) (eq_ix2 j)).trans (out1_2_apply c t x0 x1 (j 0) (j 1))

/-- The absolute value of a difference, of equal terms. -/
theorem absdiff_congr {a a' b b' : EReal} (ha : a = a') (hb : b = b') :
    max (a - b) (-(a - b)) = max (a' - b') (-(a' - b')) := by rw [ha, hb]

/-- The index maps over the grid: the whole-array window never moves, the 64-row window and the output's block are at
    row block `t`. -/
theorem idx_facts1 : ∀ t : Fin cfg1.N,
    win1_0.index t (0 : Fin 3) = 0 ∧ win1_0.index t (1 : Fin 3) = 0 ∧ win1_0.index t (2 : Fin 3) = 0
    ∧ win1_1.index t (0 : Fin 3) = 0 ∧ win1_1.index t (1 : Fin 3) = t.val ∧ win1_1.index t (2 : Fin 3) = 0
    ∧ win1_2.index t (0 : Fin 2) = t.val ∧ win1_2.index t (1 : Fin 2) = 0 :=
  (by decide +kernel : ∀ t : Fin grid1.N, _)

section
variable {F : FTy → Type} [FloatOps F]
variable (V : (c : Dev nD) → (b : Ref sig .tc) → Buf (Elt F) ((c : Thread nD τ).loc b))

/-- The whole-array window's block at any point is the whole array. -/
theorem iblk1_0_apply (c : Dev nD) (t : Fin cfg1.N) (x k : S32x256x128.Idx)
    (hk0 : (k 0).val = (x 0).val) (hk1 : (k 1).val = (x 1).val) (hk2 : (k 2).val = (x 2).val) :
    (iblk1 V c 0 t : Vec F S32x256x128 .f32) x = (V c main_v5 : S32x256x128.Idx → Elt F .f32) k := by
  obtain ⟨e0, e1, e2, -, -, -, -, -⟩ := idx_facts1 t
  unfold iblk1
  rw [View.read_apply]
  show V c main_v5 _ = V c main_v5 _
  congr 1
  funext a
  apply Fin.ext
  match a with
  | ⟨0, _⟩ => show win1_0.index t 0 * 32 + 1 * (x 0).val = (k 0).val; rw [e0, hk0]; omega
  | ⟨1, _⟩ => show win1_0.index t 1 * 256 + 1 * (x 1).val = (k 1).val; rw [e1, hk1]; omega
  | ⟨2, _⟩ => show win1_0.index t 2 * 128 + 1 * (x 2).val = (k 2).val; rw [e2, hk2]; omega

/-- The 64-row window's block at point `t` is rows `64 t … 64 t + 63` of the array. -/
theorem iblk1_1_apply (c : Dev nD) (t : Fin cfg1.N) (x : S32x64x128.Idx) (k : S32x256x128.Idx)
    (hk0 : (k 0).val = (x 0).val) (hk1 : (k 1).val = t.val * 64 + (x 1).val) (hk2 : (k 2).val = (x 2).val) :
    (iblk1 V c 1 t : Vec F S32x64x128 .f32) x = (V c main_v5 : S32x256x128.Idx → Elt F .f32) k := by
  obtain ⟨-, -, -, e3, e4, e5, -, -⟩ := idx_facts1 t
  unfold iblk1
  rw [View.read_apply]
  show V c main_v5 _ = V c main_v5 _
  congr 1
  funext a
  apply Fin.ext
  match a with
  | ⟨0, _⟩ => show win1_1.index t 0 * 32 + 1 * (x 0).val = (k 0).val; rw [e3, hk0]; omega
  | ⟨1, _⟩ => show win1_1.index t 1 * 64 + 1 * (x 1).val = (k 1).val; rw [e4, hk1]; omega
  | ⟨2, _⟩ => show win1_1.index t 2 * 128 + 1 * (x 2).val = (k 2).val; rw [e5, hk2]; omega

end

variable (V : (c : Dev nD) → (b : Ref sig .tc) → Buf (Elt Ideal) ((c : Thread nD τ).loc b))

/-- What point `t` writes back is block `t` of the features of the array as the launch finds it. -/
theorem flushed1_eq (c : Dev nD) (t : Fin cfg1.N) :
    (dat1 (F := Ideal) V c).flushed 2 t = ((cfg1.win 2).blk t).view.read (Elt Ideal) (G1 (V c main_v5)) := by
  show (cfg1.win 2).cut (grid1.coords t) ((dat1 (F := Ideal) V c).after 2 t) = _
  rw [after1_2]
  obtain ⟨-, -, -, -, -, -, e6, e7⟩ := idx_facts1 t
  funext j
  show out1_2 (F := Ideal) c t (iblk1 V c 0 t) (iblk1 V c 1 t) j
    = G1 (V c main_v5) (((cfg1.win 2).blk t).view.emb j)
  refine (out1_at c t _ _ j).trans ?_
  unfold G1
  have h0 : ((((cfg1.win 2).blk t).view.emb j) 0).val = t.val * 64 + (j 0).val := by
    show win1_2.index t 0 * 64 + 1 * (j 0).val = t.val * 64 + (j 0).val; rw [e6]; omega
  have h1 : ((((cfg1.win 2).blk t).view.emb j) 1).val = (j 1).val := by
    show win1_2.index t 1 * 128 + 1 * (j 1).val = (j 1).val; rw [e7]; omega
  refine Finset.sum_congr rfl fun i _ => congrArg Ideal.exp (congrArg Neg.neg (Finset.sum_congr rfl fun k _ => ?_))
  exact absdiff_congr (iblk1_0_apply V c t _ _ rfl rfl h1) (iblk1_1_apply V c t _ _ rfl h0 h1)

/-- An index of the output array is in point `t`'s block iff each coordinate is in the block's range on its axis. -/
theorem mem_blk1 (t : Fin cfg1.N) (i : S256x128.Idx) :
    i ∈ ((cfg1.win 2).blk t).view.set ↔ ∀ a : Fin 2, win1_2.index t a * S64x128.size a ≤ (i a).val
      ∧ (i a).val < win1_2.index t a * S64x128.size a + S64x128.size a := by
  show i ∈ ((View.whole main_v6).slice (win1_2.rect t)).set ↔ _
  rw [View.set_slice_whole, Rect.mem_set_unit]
  exact Iff.rfl

/-- Every index of the output array is in the block of the point its row names: row `j` is in block `j / 64`. -/
theorem cover1 (i : S256x128.Idx) :
    ∃ t : Fin cfg1.N, (cfg1.win 2).flush t = true ∧ i ∈ ((cfg1.win 2).blk t).view.set := by
  have hi0 : (i 0).val < 256 := (i 0).isLt
  have hi1 : (i 1).val < 128 := (i 1).isLt
  have hN : grid1.N = 4 := N_1
  let t : Fin cfg1.N := ⟨(i 0).val / 64, by show (i 0).val / 64 < grid1.N; rw [hN]; omega⟩
  have ht : t.val = (i 0).val / 64 := rfl
  obtain ⟨-, -, -, -, -, -, e6, e7⟩ := idx_facts1 t
  refine ⟨t, flush1_2 t, ?_⟩
  rw [mem_blk1]
  intro a
  match a with
  | ⟨0, _⟩ => show win1_2.index t 0 * 64 ≤ (i 0).val ∧ (i 0).val < win1_2.index t 0 * 64 + 64; rw [e6, ht]; omega
  | ⟨1, _⟩ => show win1_2.index t 1 * 128 ≤ (i 1).val ∧ (i 1).val < win1_2.index t 1 * 128 + 128; rw [e7]; omega

/-- After the four write-backs the output array is the features of the input array. -/
theorem final1_fun (c : Dev nD) : (dat1 (F := Ideal) V c).arrAt 2 cfg1.N = G1 (V c main_v5) :=
  (dat1 (F := Ideal) V c).arrAt_eq_of_cover 2 (G1 (V c main_v5)) (fun t _ => flushed1_eq V c t) cover1

/-- The input array and the output array after the launch, at their literal shapes. -/
abbrev src1 (c : Dev nD) : Vec Ideal S32x256x128 .f32 := V c main_v5
abbrev feat1 (c : Dev nD) : Vec Ideal S256x128 .f32 := (dat1 (F := Ideal) V c).arrAt 2 cfg1.N

/-- The same, entry by entry. -/
theorem final1 (c : Dev nD) (j : Fin 256) (f : Fin 128) :
    feat1 V c (ix2 j f) = ∑ i : Fin 256, Ideal.exp (-(∑ k : Fin 32,
      max (src1 V c (ix3 k i f) - src1 V c (ix3 k j f)) (-(src1 V c (ix3 k i f) - src1 V c (ix3 k j f))))) :=
  congrFun (final1_fun V c) (ix2 j f)

end Cert.KernelIdeal.Hand

end
-- ==== Proof.KHost.lean ====
import proofs.«124760_j50345606644410_1_alg».proof.Proof.Run
import Idealize.ShloMosaic.PureOps.Ideal

set_option maxRecDepth 16384

noncomputable section

namespace Cert.KernelIdeal.Hand

open Idealize.ShloMosaic Idealize.ShloMosaic.TcCoe Idealize.ShloMosaic.Tactic
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

/-!
# What the host operations leave, over the extended reals

Before the projection launch the host flattens the second argument to 2048 × 4096 and narrows both operands to the
half-width format; over the extended reals the narrowing is the identity, so the launch reads the first argument as
launched and the second one flattened. Between the launches the host reshapes the 256 × 4096 product to
256 × 128 × 32 and moves the last axis to the front; the pairwise launch reads that array.
-/

/-- The pairwise launch's input array: the projection launch's output array, reshaped to 256 × 128 × 32 and its
    last axis moved to the front. -/
theorem V3_main_v5 (c : Dev nD) :
    (V3 (F := Ideal) m ρ c main_v5 : Vec Ideal S32x256x128 .f32)
      = transpose S32x256x128 [2, 0, 1]
          (shapeCast S256x128x32 ((dat0 (V1 m ρ) c).arrAt 2 cfg0.N) shapeCasts_S256x4096_S256x128x32)
          transposes_S256x128x32_S32x256x128_2_0_1 := by
  show StableHlo.after hostOps1 _ (Proc.devRef .tc main_v5) = _
  after_results
  rw [show W2 m ρ c (Proc.devRef .tc main_v3) = (dat0 (V1 m ρ) c).arrAt 2 cfg0.N from W2_arr m ρ c 2]
  rfl

/-- The projection launch's left operand: the first argument as launched (narrowing is the identity over the
    extended reals). -/
theorem V1_main_v1 (c : Dev nD) :
    (V1 (F := Ideal) m ρ c main_v1 : Vec Ideal S256x2048 .bf16) = m ((c : Thread nD τ).loc main_arg0) := by
  show StableHlo.after hostOps0 _ (Proc.devRef .tc main_v1) = _
  after_results
  rfl

/-- The projection launch's right operand: the second argument flattened to 2048 × 4096. -/
theorem V1_main_v2 (c : Dev nD) :
    (V1 (F := Ideal) m ρ c main_v2 : Vec Ideal S2048x4096 .bf16)
      = shapeCast S2048x4096 (m ((c : Thread nD τ).loc main_arg1)) shapeCasts_S2048x128x32_S2048x4096 := by
  show StableHlo.after hostOps0 _ (Proc.devRef .tc main_v2) = _
  after_results
  rfl

end Cert.KernelIdeal.Hand

end
-- ==== Proof.Bridge.lean ====
import proofs.«124760_j50345606644410_1_alg».proof.Proof.Run
import proofs.«124760_j50345606644410_1_alg».proof.Proof.V0
import proofs.«124760_j50345606644410_1_alg».proof.Proof.V1body
import proofs.«124760_j50345606644410_1_alg».proof.Proof.KLayout
import proofs.«124760_j50345606644410_1_alg».proof.Proof.Spec
import proofs.«124760_j50345606644410_1_alg».proof.Proof.RefSide
import proofs.«124760_j50345606644410_1_alg».proof.Proof.V1
import proofs.«124760_j50345606644410_1_alg».proof.Proof.KHost

/-!
# The kernel's program computes the specification's discrimination features

After the second launch the output array holds, at row `j` and feature `f`, the sum over every row `i` of
`exp (-(∑ k, |P(k, i, f) - P(k, j, f)|))`, where `P` is the first launch's product, reshaped and with the kernel dimension
moved to the front: `P(k, i, f)` is the product at row `i`, flat column `f * 32 + k`, that is the specification's
projected batch `mm x T i f k`. The kernel's distance is between rows `i` and `j` where the specification's is between
`j` and `i`; the distance is symmetric. The reference's result is the same function of the same two arrays.
-/

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

variable (m : (ℓ : Loc nD τ sig) → Buf (Elt Ideal) ℓ) (ρ : Dev nD → PrngReg)

/-- The batch as the run finds it, at its literal shape. -/
abbrev xK (c : Dev nD) : Vec Ideal S256x2048 .f32 := m ((c : Thread nD τ).loc main_arg0)
/-- The tensor as the run finds it, at its literal shape. -/
abbrev TK (c : Dev nD) : Vec Ideal S2048x128x32 .f32 := m ((c : Thread nD τ).loc main_arg1)
/-- The second launch's resident array (the transposed, reshaped product), at its literal shape. -/
abbrev PK (c : Dev nD) : Vec Ideal S32x256x128 .f32 := V3 (F := Ideal) m ρ c main_v5
/-- The second launch's output array after the launch, at its literal shape. -/
abbrev OK (c : Dev nD) : Vec Ideal S256x128 .f32 := (dat1 (F := Ideal) (V3 m ρ) c).arrAt 2 cfg1.N

/-- The second launch's resident array at `(k, i, f)` is the specification's projected batch at `(i, f, k)`: the first
    launch's product at row `i`, flat column `f * 32 + k`, is the sum over `d` of the batch at `(i, d)` times the flattened
    tensor at `(d, f * 32 + k)`, which is the tensor at `(d, f, k)`. -/
theorem proj_apply (c : Dev nD) (k : Fin 32) (i : Fin 256) (f : Fin 128) :
    PK m ρ c (ix3 k i f) = Cert.Spec.mm (fun i d => xK m c (ix2 i d)) (fun d f k => TK m c (ix3 d f k)) i f k := by
  have h1 : PK m ρ c (ix3 k i f) = prod0 (V1 m ρ) c (ix2 i ⟨f.val * 32 + k.val, by omega⟩) :=
    (congrFun (V3_main_v5 m ρ c) (ix3 k i f)).trans (tr_apply _ k i f)
  rw [h1, final0]
  unfold Cert.Spec.mm
  refine Finset.sum_congr rfl fun d _ => ?_
  have h2 : lhs0 (V1 m ρ) c (ix2 i d) = xK m c (ix2 i d) := congrFun (V1_main_v1 m ρ c) (ix2 i d)
  have h3 : rhs0 (V1 m ρ) c (ix2 d ⟨f.val * 32 + k.val, by omega⟩) = TK m c (ix3 d f k) :=
    (congrFun (V1_main_v2 m ρ c) _).trans (reshT_apply _ d f k)
  exact congrArg₂ (· * ·) h2 h3

/-- The output array at row `j`, feature `f`, over the named arrays. -/
theorem kernel_ob' (c : Dev nD) (j : Fin 256) (f : Fin 128) :
    OK m ρ c (ix2 j f)
      = Cert.Spec.ob (Cert.Spec.mm (fun i d => xK m c (ix2 i d)) (fun d f k => TK m c (ix3 d f k))) j f := by
  have hG : OK m ρ c (ix2 j f) = G1 (PK m ρ c) (ix2 j f) := congrFun (final1_fun (V3 m ρ) c) (ix2 j f)
  rw [hG]
  show ∑ i : Fin 256, Ideal.exp (-(∑ k : Fin 32,
      max (PK m ρ c (ix3 k i f) - PK m ρ c (ix3 k j f)) (-(PK m ρ c (ix3 k i f) - PK m ρ c (ix3 k j f))))) = _
  unfold Cert.Spec.ob
  refine Finset.sum_congr rfl fun i _ => ?_
  rw [Cert.Spec.dist_comm]
  unfold Cert.Spec.dist
  refine congrArg Ideal.exp (congrArg Neg.neg (Finset.sum_congr rfl fun k _ => ?_))
  rw [proj_apply m ρ c k i f, proj_apply m ρ c k j f]

/-- The kernel's output array at row `j`, feature `f` is the specification's discrimination feature of the projected batch. -/
theorem kernel_ob (c : Dev nD) (j : Fin 256) (f : Fin 128) :
    ((dat1 (F := Ideal) (V3 m ρ) c).arrAt 2 cfg1.N : Vec Ideal S256x128 .f32) (ix2 j f)
      = Cert.Spec.ob (Cert.Spec.mm (fun i d => xK m c (ix2 i d)) (fun d f k => TK m c (ix3 d f k))) j f :=
  kernel_ob' m ρ c j f

/-- The output array is the reference's array of discrimination features of the same batch and tensor, over the named arrays. -/
theorem kernel_eq_ref' (c : Dev nD) :
    OK m ρ c = Cert.ReferenceIdeal.Read.val_main_v12 (F := Ideal) (xK m c) (TK m c) := by
  funext j
  obtain ⟨p, q, rfl⟩ : ∃ (p : Fin 256) (q : Fin 128), j = ix2 p q := ⟨j 0, j 1, eq_ix2 j⟩
  exact (kernel_ob' m ρ c p q).trans (Cert.ReferenceIdeal.RefValue.ref_ob (xK m c) (TK m c) p q).symm

/-- The kernel's output array is the reference's array of discrimination features of the same batch and tensor. -/
theorem kernel_eq_ref (c : Dev nD) :
    ((dat1 (F := Ideal) (V3 m ρ) c).arrAt 2 cfg1.N : Vec Ideal S256x128 .f32)
      = Cert.ReferenceIdeal.Read.val_main_v12 (F := Ideal) (xK m c) (TK m c) :=
  kernel_eq_ref' m ρ c

end Cert.KernelIdeal.Hand

end
-- ==== Proof.lean ====
/-
  Minibatch discrimination. For a batch `x` (256 rows of 2048 features) and a tensor `T` (2048 × 128 × 32) both programs
  return `x` with 128 columns appended, column `f` of row `j` holding

      ∑ i, exp (-(∑ k, |M i f k - M j f k|)),      M = x · T,

  where `T` is read as a 2048 × 4096 matrix and the product as 256 × 128 × 32 (`Cert.Spec.mm`, `dist`, `ob`).

  The kernel computes `M` in a first launch, one block of 1024 of the 4096 columns per grid point, each entry a sum over
  the whole contracted axis; its casts to a narrower float format are the identity on the extended reals. The host transposes
  `M` to 32 × 256 × 128. A second launch takes that array twice — whole, and a block of 64 of its rows — and for each block
  adds the 32 absolute differences `|M i f k - M j f k|` into a scratch array that starts at zero, then stores
  `∑ i, exp (0 - scratch)` over a block of 64 rows of the output. The host appends the result to `x`.

  The reference forms `|M j f k - M i f k|`. On the extended reals `|a - b| = |b - a|` at the infinities too, and addition is
  associative and commutative without side conditions, so the two results agree entry by entry and the precondition is never
  opened. The ideal pass rewrote no operation, so there is nothing to preserve.

  The frames: every execution of either program passes through host operations, a launch, host operations, a launch and
  the concatenation; between them the unscoped buffers hold a valuation folded from the launch memory, a launch changing
  only its output array, and no step writes an argument. The kernel's value is read off the same run.
-/
import proofs.«124760_j50345606644410_1_alg».proof.Defs
import proofs.«124760_j50345606644410_1_alg».proof.Proof.Gen.Kernel
import proofs.«124760_j50345606644410_1_alg».proof.Proof.Gen.KernelIdeal
import proofs.«124760_j50345606644410_1_alg».proof.Proof.Gen.ReferenceIdeal
import proofs.«124760_j50345606644410_1_alg».proof.Proof.Gen.Pre_finite_inputs
import proofs.«124760_j50345606644410_1_alg».proof.Proof.Gen.ReferenceIdeal.Run
import proofs.«124760_j50345606644410_1_alg».proof.Proof.Gen.ReferenceIdeal.Read
import proofs.«124760_j50345606644410_1_alg».proof.Proof.RefSide
import proofs.«124760_j50345606644410_1_alg».proof.Proof.BRunArgs
import proofs.«124760_j50345606644410_1_alg».proof.Proof.RunArgs
import proofs.«124760_j50345606644410_1_alg».proof.Proof.Bridge
import Idealize.ShloMosaic.Adequacy
import Idealize.ShloMosaic.Init

noncomputable section

namespace Cert.Proof

open Idealize.ShloMosaic Idealize.ShloMosaic.TcCoe Idealize.SL.Sem

/-- The word-level program runs to the end, faults nowhere, and its two argument arrays end as launched: no host
    operation writes them and neither launch stages them as an output. -/
theorem frame_kernel : Cert.frame_Kernel (hKernel := Cert.Kernel.Gen.facts) (hPre_finite_inputs := Cert.Pre_finite_inputs.Gen.facts) := fun m ρ _ =>
  (θ_run Cert.Kernel.defs _ _).mono (fun r h c =>
    ⟨(h c _ (Cert.Kernel.Hand.mem_uc Cert.Kernel.main_arg0 (by decide))).trans (Cert.Kernel.Hand.W5_main_arg0 m ρ c),
     (h c _ (Cert.Kernel.Hand.mem_uc Cert.Kernel.main_arg1 (by decide))).trans (Cert.Kernel.Hand.W5_main_arg1 m ρ c)⟩)
    (Cert.Kernel.Hand.run (F := Bits) m ρ)

/-- The same for the idealized program. -/
theorem frame_kernelIdeal : Cert.frame_KernelIdeal (hKernelIdeal := Cert.KernelIdeal.Gen.facts) (hPre_finite_inputs := Cert.Pre_finite_inputs.Gen.facts) := fun m ρ _ =>
  (θ_run Cert.KernelIdeal.defs _ _).mono (fun r h c =>
    ⟨(h c _ (Cert.KernelIdeal.Hand.mem_uc Cert.KernelIdeal.main_arg0 (by decide))).trans (Cert.KernelIdeal.Hand.W5_main_arg0 m ρ c),
     (h c _ (Cert.KernelIdeal.Hand.mem_uc Cert.KernelIdeal.main_arg1 (by decide))).trans (Cert.KernelIdeal.Hand.W5_main_arg1 m ρ c)⟩)
    (Cert.KernelIdeal.Hand.run (F := Ideal) m ρ)

/-- The reference is host operations only: its run with the result dropped. -/
theorem frame_reference : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

/-- Both idealized programs end with the batch `x` followed by the 128 discrimination features of each row: the kernel's
    second block of columns is what its second launch leaves, which is the reference's reduction index by index. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Hand.W5 m ρ c (Proc.devRef .tc Cert.KernelIdeal.main_v7), ?_, ?_⟩
  · exact (θ_run Cert.KernelIdeal.defs _ _).mono (fun r h c =>
      ⟨h c _ (Cert.KernelIdeal.Hand.mem_uc Cert.KernelIdeal.main_v7 (by decide)),
       (h c _ (Cert.KernelIdeal.Hand.mem_uc Cert.KernelIdeal.main_arg0 (by decide))).trans (Cert.KernelIdeal.Hand.W5_main_arg0 m ρ c),
       (h c _ (Cert.KernelIdeal.Hand.mem_uc Cert.KernelIdeal.main_arg1 (by decide))).trans (Cert.KernelIdeal.Hand.W5_main_arg1 m ρ c)⟩)
      (Cert.KernelIdeal.Hand.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v13_eq, Cert.ReferenceIdeal.RefValue.ref_result, (hagree c).1, (hagree c).2]
    refine Eq.symm ?_
    show Cert.KernelIdeal.Hand.W5 m ρ c (Proc.devRef .tc Cert.KernelIdeal.main_v7) = _
    rw [Cert.KernelIdeal.Hand.W5_main_v7, Cert.KernelIdeal.Hand.kernel_eq_ref]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
